-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S32x256 : Shape := ⟨2, ![32, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_

variable [Facts]

def fn {F : FTy → Type} [FloatOps F] (main_arg0 : FVec F S8192x256 .f32) (main_arg1 : FVec F S32x256 .f32) (main_arg2 : FVec F S32x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  main_v13
-- ==== Kernel.lean ====
abbrev S8192x256 : Shape := ⟨2, ![8192, 256]⟩
abbrev S32x256 : Shape := ⟨2, ![32, 256]⟩
abbrev S_ : Shape := ⟨0, ![]⟩
abbrev S32 : Shape := ⟨1, ![32]⟩
abbrev S1x32 : Shape := ⟨2, ![1, 32]⟩
abbrev S2x2x32x256 : Shape := ⟨4, ![2, 2, 32, 256]⟩
abbrev S512x256 : Shape := ⟨2, ![512, 256]⟩
abbrev S1x2x32x256 : Shape := ⟨4, ![1, 2, 32, 256]⟩
abbrev S32x1 : Shape := ⟨2, ![32, 1]⟩
abbrev S512x32 : Shape := ⟨2, ![512, 32]⟩
abbrev S512 : Shape := ⟨1, ![512]⟩
abbrev S512x1 : Shape := ⟨2, ![512, 1]⟩
abbrev S1x32x256 : Shape := ⟨3, ![1, 32, 256]⟩
abbrev S2x32x256 : Shape := ⟨3, ![2, 32, 256]⟩
abbrev S16384 : Shape := ⟨1, ![16384]⟩

abbrev nBuf : Space → Nat
  | .hbm => 21
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S32x256, .f32⟩
  | .hbm, ⟨5, _⟩ => ⟨S_, .f32⟩
  | .hbm, ⟨6, _⟩ => ⟨S32x256, .f32⟩
  | .hbm, ⟨7, _⟩ => ⟨S32x256, .f32⟩
  | .hbm, ⟨8, _⟩ => ⟨S32x256, .f32⟩
  | .hbm, ⟨9, _⟩ => ⟨S32x256, .f32⟩
  | .hbm, ⟨10, _⟩ => ⟨S32x256, .f32⟩
  | .hbm, ⟨11, _⟩ => ⟨S_, .f32⟩
  | .hbm, ⟨12, _⟩ => ⟨S32, .f32⟩
  | .hbm, ⟨13, _⟩ => ⟨S1x32, .f32⟩
  | .hbm, ⟨14, _⟩ => ⟨S2x2x32x256, .f32⟩
  | .hbm, ⟨15, _⟩ => ⟨S_, .f32⟩
  | .hbm, ⟨16, _⟩ => ⟨S2x32x256, .f32⟩
  | .hbm, ⟨17, _⟩ => ⟨S_, .f32⟩
  | .hbm, ⟨18, _⟩ => ⟨S2x32x256, .f32⟩
  | .hbm, ⟨19, _⟩ => ⟨S2x32x256, .f32⟩
  | .hbm, ⟨20, _⟩ => ⟨S16384, .f32⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S1x32, .f32⟩
  | .local _ .vmem, ⟨8, _⟩ => ⟨S1x2x32x256, .f32⟩
  | .local _ .vmem, ⟨9, _⟩ => ⟨S1x2x32x256, .f32⟩
  | .local _ .vmem, ⟨10, _⟩ => ⟨S32x256, .f32⟩
  | .local _ .vmem, ⟨11, _⟩ => ⟨S32x256, .f32⟩
  | .local _ .vmem, ⟨12, _⟩ => ⟨S32x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S32x256 : S_.BroadcastsInDim S32x256 (![] : Fin 0 → Fin S32x256.rank)
  reducesTo_S32x256_S32_d1 : S32x256.ReducesTo [1] S32
  h_S_ : 0 < S_.numel
  shapeCasts_S32_S1x32 : S32.ShapeCasts S1x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S512x256_S512x256_0_0 : ∀ a, (![0, 0] : Fin 2 → Nat) a + S512x256.size a ≤ S512x256.size a
  h_S512x256 : 0 < S512x256.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  reduces_S512x32_S512 : S512x32.Reduces [1] S512
  shapeCasts_S512_S512x1 : S512.ShapeCasts S512x1
  broadcasts_S512x1_S512x32 : S512x1.Broadcasts S512x32
  reduces_S512x32_S32 : S512x32.Reduces [0] S32
  transposes_S1x32_p1_0_S32x1 : S1x32.Transposes [1, 0] S32x1
  broadcasts_S32x1_S32x256 : S32x1.Broadcasts S32x256
  shapeCasts_S32x256_S1x32x256 : S32x256.ShapeCasts S1x32x256
  concatenates_S1x32x256_S1x32x256_S2x32x256_d0 : Shape.Concatenates [S1x32x256, S1x32x256] S2x32x256 0
  inb_S1x2x32x256_S1x2x32x256_0_0_0_0 : ∀ a, (![0, 0, 0, 0] : Fin 4 → Nat) a + S1x2x32x256.size a ≤ S1x2x32x256.size a
  h_S1x2x32x256 : 0 < S1x2x32x256.numel
  shapeCasts_S1x2x32x256_S2x32x256 : S1x2x32x256.ShapeCasts S2x32x256
  shapeCasts_S2x32x256_S1x2x32x256 : S2x32x256.ShapeCasts S1x2x32x256
  reducesTo_S2x2x32x256_S2x32x256_d0 : S2x2x32x256.ReducesTo [0] S2x32x256
  bcast_S_S2x32x256 : S_.BroadcastsInDim S2x32x256 (![] : Fin 0 → Fin S2x32x256.rank)
  shapeCasts_S2x32x256_S16384 : S2x32x256.ShapeCasts S16384
  dot_S512x256_S32x256_S512x32_1_1_0_0_n_n_wf : DotDims.WF S512x256 S32x256 S512x32 [1] [1] [0] [0] [] []
  dot_S512x32_S512x256_S32x256_0_0_1_1_n_n_wf : DotDims.WF S512x32 S512x256 S32x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .f32 = 32 ∨ (Rect.block (s := S32x256) S32x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x256.size a
  hwx0_4 : ∀ i : grid0.Coords, EltTy.bits .f32 = 32 ∨ (Rect.block (s := S32x256) S32x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x256.size a
  hwx0_5 : ∀ i : grid0.Coords, EltTy.bits .f32 = 32 ∨ (Rect.block (s := S32x256) S32x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x32x256.size a ≤ S2x2x32x256.size a
  hwx0_7 : ∀ i : grid0.Coords, EltTy.bits .f32 = 32 ∨ (Rect.block (s := S2x2x32x256) S1x2x32x256.size (cc0_transform_7 i) (hinb0_7 i)).WholeWords (EltTy.packing .f32)

variable [Facts₀]

def dot_S512x256_S32x256_S512x32_1_1_0_0_n_n : DotDims S512x256 S32x256 S512x32 where
  lhsContracting := [1]
  rhsContracting := [1]
  lhsNonContracting := [0]
  rhsNonContracting := [0]
  lhsBatch := []
  rhsBatch := []
  wf := dot_S512x256_S32x256_S512x32_1_1_0_0_n_n_wf
def dot_S512x32_S512x256_S32x256_0_0_1_1_n_n : DotDims S512x32 S512x256 S32x256 where
  lhsContracting := [0]
  rhsContracting := [0]
  lhsNonContracting := [1]
  rhsNonContracting := [1]
  lhsBatch := []
  rhsBatch := []
  wf := dot_S512x32_S512x256_S32x256_0_0_1_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2x32x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x256 : Shape := ⟨2, ![8192, 256]⟩
abbrev S32x256 : Shape := ⟨2, ![32, 256]⟩
abbrev S1x32x256 : Shape := ⟨3, ![1, 32, 256]⟩
abbrev S8192x1x256 : Shape := ⟨3, ![8192, 1, 256]⟩
abbrev S8192x32x256 : Shape := ⟨3, ![8192, 32, 256]⟩
abbrev S_ : Shape := ⟨0, ![]⟩
abbrev S8192x32 : Shape := ⟨2, ![8192, 32]⟩
abbrev S8192 : Shape := ⟨1, ![8192]⟩
abbrev S8192x1 : Shape := ⟨2, ![8192, 1]⟩
abbrev S8192x32x1 : Shape := ⟨3, ![8192, 32, 1]⟩
abbrev S8192x8192 : Shape := ⟨2, ![8192, 8192]⟩
abbrev S8192x16384 : Shape := ⟨2, ![8192, 16384]⟩
abbrev S16384 : Shape := ⟨1, ![16384]⟩

abbrev nBuf : Space → Nat
  | .hbm => 50
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S32x256, .f32⟩
  | .hbm, ⟨2, _⟩ => ⟨S32x256, .f32⟩
  | .hbm, ⟨3, _⟩ => ⟨S1x32x256, .f32⟩
  | .hbm, ⟨4, _⟩ => ⟨S8192x1x256, .f32⟩
  | .hbm, ⟨5, _⟩ => ⟨S1x32x256, .f32⟩
  | .hbm, ⟨6, _⟩ => ⟨S8192x32x256, .f32⟩
  | .hbm, ⟨7, _⟩ => ⟨S8192x32x256, .f32⟩
  | .hbm, ⟨8, _⟩ => ⟨S8192x32x256, .f32⟩
  | .hbm, ⟨9, _⟩ => ⟨S8192x32x256, .f32⟩
  | .hbm, ⟨10, _⟩ => ⟨S8192x32x256, .f32⟩
  | .hbm, ⟨11, _⟩ => ⟨S8192x32x256, .f32⟩
  | .hbm, ⟨12, _⟩ => ⟨S_, .f32⟩
  | .hbm, ⟨13, _⟩ => ⟨S8192x32, .f32⟩
  | .hbm, ⟨14, _⟩ => ⟨S_, .f32⟩
  | .hbm, ⟨15, _⟩ => ⟨S8192x32, .f32⟩
  | .hbm, ⟨16, _⟩ => ⟨S8192x32, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x32, .f32⟩
  | .hbm, ⟨30, _⟩ => ⟨S8192x32, .f32⟩
  | .hbm, ⟨31, _⟩ => ⟨S_, .f32⟩
  | .hbm, ⟨32, _⟩ => ⟨S8192x32x256, .f32⟩
  | .hbm, ⟨33, _⟩ => ⟨S8192x32x256, .f32⟩
  | .hbm, ⟨34, _⟩ => ⟨S_, .f32⟩
  | .hbm, ⟨35, _⟩ => ⟨S8192x32x256, .f32⟩
  | .hbm, ⟨36, _⟩ => ⟨S8192x32x256, .f32⟩
  | .hbm, ⟨37, _⟩ => ⟨S8192x32x1, .f32⟩
  | .hbm, ⟨38, _⟩ => ⟨S8192x32x256, .f32⟩
  | .hbm, ⟨39, _⟩ => ⟨S8192x32x256, .f32⟩
  | .hbm, ⟨40, _⟩ => ⟨S8192x8192, .f32⟩
  | .hbm, ⟨41, _⟩ => ⟨S8192x32x256, .f32⟩
  | .hbm, ⟨42, _⟩ => ⟨S8192x32x256, .f32⟩
  | .hbm, ⟨43, _⟩ => ⟨S8192x8192, .f32⟩
  | .hbm, ⟨44, _⟩ => ⟨S8192x16384, .f32⟩
  | .hbm, ⟨45, _⟩ => ⟨S_, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S32x256_S1x32x256_1_2 : S32x256.BroadcastsInDim S1x32x256 (![1, 2] : Fin 2 → Fin S1x32x256.rank)
  bcast_S8192x256_S8192x1x256_0_2 : S8192x256.BroadcastsInDim S8192x1x256 (![0, 2] : Fin 2 → Fin S8192x1x256.rank)
  bcast_S8192x1x256_S8192x32x256_0_1_2 : S8192x1x256.BroadcastsInDim S8192x32x256 (![0, 1, 2] : Fin 3 → Fin S8192x32x256.rank)
  bcast_S1x32x256_S8192x32x256_0_1_2 : S1x32x256.BroadcastsInDim S8192x32x256 (![0, 1, 2] : Fin 3 → Fin S8192x32x256.rank)
  reducesTo_S8192x32x256_S8192x32_d2 : S8192x32x256.ReducesTo [2] S8192x32
  h_S_ : 0 < S_.numel
  bcast_S_S8192x32 : S_.BroadcastsInDim S8192x32 (![] : Fin 0 → Fin S8192x32.rank)
  reducesTo_S8192x32_S8192_d1 : S8192x32.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S_S8192x32x256 : S_.BroadcastsInDim S8192x32x256 (![] : Fin 0 → Fin S8192x32x256.rank)
  bcast_S8192x32_S8192x32x1_0_1 : S8192x32.BroadcastsInDim S8192x32x1 (![0, 1] : Fin 2 → Fin S8192x32x1.rank)
  bcast_S8192x32x1_S8192x32x256_0_1_2 : S8192x32x1.BroadcastsInDim S8192x32x256 (![0, 1, 2] : Fin 3 → Fin S8192x32x256.rank)
  shapeCasts_S8192x32x256_S8192x8192 : S8192x32x256.ShapeCasts S8192x8192
  concatenates_S8192x8192_S8192x8192_S8192x16384_d1 : Shape.Concatenates [S8192x8192, S8192x8192] S8192x16384 1
  reducesTo_S8192x16384_S16384_d0 : S8192x16384.ReducesTo [0] S16384
  bcast_S_S16384 : S_.BroadcastsInDim S16384 (![] : Fin 0 → Fin S16384.rank)

variable [Facts₀]

class Facts : Prop extends Facts₀ where

variable [Facts]
-- ==== Proof.Spec.lean ====
/-
  The mixture layer's pooled output as functions of the three argument arrays, over the extended reals: once as the
  reference spells it (scores of every row against every component, softmax weights, the weighted scores averaged over
  the rows) and once as the kernel computes it (the squared score expanded into three sums, so that the row sums become
  matrix products, accumulated tile by tile and core by core, and the average a product with 2⁻¹³).
  Sums that the programs start from a zero are written here as plain sums.
-/
import Idealize.ShloMosaic.PureOps.Ideal
import Idealize.ShloMosaic.Lib.ValueIdx

noncomputable section

open scoped BigOperators

namespace Cert.Fisher

open Idealize.ShloMosaic

/-! ## The constants both programs spell -/

abbrev ninf : EReal := Ideal.ofBits .f32 0xFF800000#32
abbrev chalf : EReal := Ideal.ofBits .f32 0xBF000000#32
abbrev rsqrt2 : EReal := Ideal.ofBits .f32 0x3F3504F3#32
abbrev one32 : EReal := Ideal.ofBits .f32 0x3F800000#32
abbrev two32 : EReal := Ideal.ofBits .f32 0x40000000#32
abbrev inv8192 : EReal := Ideal.ofBits .f32 0x39000000#32
abbrev n8192 : EReal := Ideal.ofBits .f32 0x46000000#32

/-! ## Softmax weights of one row of logits -/

/-- The row's maximum, as both programs take it: folded from `-inf`, then once more compared with `-inf`. -/
def rowMax (y : Fin 32 → EReal) : EReal := max ninf (Finset.univ.fold max ninf y)

/-- The softmax weight of component `k`: `exp (y k - max) / ∑ j, exp (y j - max)`. -/
def weights (y : Fin 32 → EReal) (k : Fin 32) : EReal :=
  Ideal.div (Ideal.exp (y k - rowMax y)) (∑ j : Fin 32, Ideal.exp (y j - rowMax y))

/-! ## The flat result: the `sigma` half, then the `mu` half, each row-major over (component, feature) -/

theorem flat_lo {q : ℕ} (h : q < 8192) : q / 256 < 32 := by omega
theorem flat_hi {q : ℕ} (h : q < 16384) : (q - 8192) / 256 < 32 := by omega
theorem flat_mod (q : ℕ) : q % 256 < 256 := Nat.mod_lt _ (by decide)

/-- Entry `q` of the flat result. -/
def flatOut (sig mu : Fin 32 → Fin 256 → EReal) (q : Fin 16384) : EReal :=
  if h : q.val < 8192 then sig ⟨q.val / 256, flat_lo h⟩ ⟨q.val % 256, flat_mod _⟩
  else mu ⟨(q.val - 8192) / 256, flat_hi q.isLt⟩ ⟨q.val % 256, flat_mod _⟩

/-- The flat result as an array of shape [16384]. -/
def flatArr (sig mu : Fin 32 → Fin 256 → EReal) : (⟨1, ![16384]⟩ : Shape).Idx → EReal :=
  fun i => flatOut sig mu ⟨(i 0).val, (i 0).isLt⟩

/-- A matrix given as an array of shape [a, b], read by coordinates. -/
def arr2 {a b : ℕ} (x : (⟨2, ![a, b]⟩ : Shape).Idx → EReal) : Fin a → Fin b → EReal :=
  fun p q => x (ValueIdx.ix2 p q)

section
variable (x : Fin 8192 → Fin 256 → EReal) (w b : Fin 32 → Fin 256 → EReal)

/-! ## As the reference spells it -/

/-- The first score: `w · (x + b)`. -/
def y1 (n : Fin 8192) (k : Fin 32) (d : Fin 256) : EReal := w k d * (x n d + b k d)
/-- The second score: the first one squared. -/
def y2 (n : Fin 8192) (k : Fin 32) (d : Fin 256) : EReal := y1 x w b n k d * y1 x w b n k d
/-- The logit of row `n` for component `k`: `-½ ∑_d y2`. -/
def refLogit (n : Fin 8192) (k : Fin 32) : EReal := chalf * ∑ d : Fin 256, y2 x w b n k d
def refGamma (n : Fin 8192) (k : Fin 32) : EReal := weights (refLogit x w b n) k
def refSigma (k : Fin 32) (d : Fin 256) : EReal :=
  Ideal.div (∑ n : Fin 8192, refGamma x w b n k * ((y2 x w b n k d - one32) * rsqrt2)) n8192
def refMu (k : Fin 32) (d : Fin 256) : EReal :=
  Ideal.div (∑ n : Fin 8192, refGamma x w b n k * y1 x w b n k d) n8192

/-! ## As the kernel computes it -/

/-- The five weight tables computed before the launch. -/
def w2 (k : Fin 32) (d : Fin 256) : EReal := w k d * w k d
def wb (k : Fin 32) (d : Fin 256) : EReal := w k d * b k d
def wb2 (k : Fin 32) (d : Fin 256) : EReal := (two32 * w2 w k d) * b k d
def w2b2 (k : Fin 32) (d : Fin 256) : EReal := (w2 w k d * b k d) * b k d
def cbias (k : Fin 32) : EReal := ∑ d : Fin 256, w2b2 w b k d

/-- The logit with the square expanded: `-½ ((∑ x² w² + ∑ x (2 w² b)) + ∑ w² b²)`. -/
def kerLogit (n : Fin 8192) (k : Fin 32) : EReal :=
  chalf * ((∑ d : Fin 256, (x n d * x n d) * w2 w k d + ∑ d : Fin 256, x n d * wb2 w b k d) + cbias w b k)
def kerGamma (n : Fin 8192) (k : Fin 32) : EReal := weights (kerLogit x w b n) k

theorem row_lt (t : Fin 16) (r : Fin 512) : 512 * t.val + r.val < 8192 := by
  have := t.isLt; have := r.isLt; omega
/-- Row `r` of tile `t` (sixteen tiles of 512 rows). -/
def row (t : Fin 16) (r : Fin 512) : Fin 8192 := ⟨512 * t.val + r.val, row_lt t r⟩

theorem tile_lt (c : Fin 2) (i : Fin 8) : 8 * c.val + i.val < 16 := by
  have := c.isLt; have := i.isLt; omega
/-- Step `i` of core `c` works on tile `8 c + i`. -/
def tile (c : Fin 2) (i : Fin 8) : Fin 16 := ⟨8 * c.val + i.val, tile_lt c i⟩

/-- One tile's contributions to the three running sums. -/
def tileA (t : Fin 16) (k : Fin 32) (d : Fin 256) : EReal :=
  ∑ r : Fin 512, kerGamma x w b (row t r) k * x (row t r) d
def tileB (t : Fin 16) (k : Fin 32) (d : Fin 256) : EReal :=
  ∑ r : Fin 512, kerGamma x w b (row t r) k * (x (row t r) d * x (row t r) d)
def tileC (t : Fin 16) (k : Fin 32) : EReal := ∑ r : Fin 512, kerGamma x w b (row t r) k

/-- One core's sums over its eight tiles. -/
def coreA (c : Fin 2) (k : Fin 32) (d : Fin 256) : EReal := ∑ i : Fin 8, tileA x w b (tile c i) k d
def coreB (c : Fin 2) (k : Fin 32) (d : Fin 256) : EReal := ∑ i : Fin 8, tileB x w b (tile c i) k d
def coreC (c : Fin 2) (k : Fin 32) : EReal := ∑ i : Fin 8, tileC x w b (tile c i) k

/-- The block a core writes at its last step. -/
def coreSigma (c : Fin 2) (k : Fin 32) (d : Fin 256) : EReal :=
  ((((w2 w k d * coreB x w b c k d + wb2 w b k d * coreA x w b c k d) + w2b2 w b k d * coreC x w b c k)
    - coreC x w b c k) * rsqrt2)
def coreMu (c : Fin 2) (k : Fin 32) (d : Fin 256) : EReal :=
  w k d * coreA x w b c k d + wb w b k d * coreC x w b c k

/-- The two cores' blocks added and scaled by 2⁻¹³. -/
def kerSigma (k : Fin 32) (d : Fin 256) : EReal := (∑ c : Fin 2, coreSigma x w b c k d) * inv8192
def kerMu (k : Fin 32) (d : Fin 256) : EReal := (∑ c : Fin 2, coreMu x w b c k d) * inv8192

end

end Cert.Fisher

end
-- ==== Proof.RefValue.lean ====
/-
  The reference program's result, read entry by entry as the mixture layer's pooled output over the extended reals:
  stage by stage, each printed operation at an index is the corresponding quantity of the specification
  (scores, logits, row maxima, softmax weights, the weighted scores), and the final array is the flat
  arrangement of the two pooled halves divided by the number of rows.
-/
import proofs.«154990_j30846455119907_2_alg».proof.Proof.RefRead
import proofs.«154990_j30846455119907_2_alg».proof.Proof.Spec
import Idealize.ShloMosaic.Lib.ValueIdx
import Idealize.ShloMosaic.Lib.Pipeline.Value
import Idealize.ShloMosaic.Lib.IdealHost
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP Cert.Fisher Idealize.ShloMosaic
  Idealize.ShloMosaic.ValueIdx

variable (x0 : (⟨S8192x256, .f32⟩ : BufTy).Contents (Elt Ideal)) (x1 x2 : (⟨S32x256, .f32⟩ : BufTy).Contents (Elt Ideal))

/-! ## The scores -/

/-- The first score at (n, k, d): `w k d * (x n d + b k d)`. -/
theorem v7_at (n : Fin 8192) (k : Fin 32) (d : Fin 256) :
    val_main_v7 (F := Ideal) x0 x1 x2 (ix3 n k d) = y1 (arr2 x0) (arr2 x1) (arr2 x2) n k d := by
  rw [val_main_v7_apply, val_main_v6_apply, val_main_v0_apply, val_main_v5_apply, val_main_v3_apply,
    val_main_v1_apply, val_main_v4_apply, val_main_v2_apply]
  have e1 : idx_main_v0 (idx_main_v6 (ix3 n k d)) = ix2 k d :=
    funext fun a => Fin.ext (by match a with | ⟨0, _⟩ => rfl | ⟨1, _⟩ => rfl)
  have e0 : idx_main_v1 (idx_main_v3 (ix3 n k d)) = ix2 n d :=
    funext fun a => Fin.ext (by match a with | ⟨0, _⟩ => rfl | ⟨1, _⟩ => rfl)
  have e2 : idx_main_v2 (idx_main_v4 (ix3 n k d)) = ix2 k d :=
    funext fun a => Fin.ext (by match a with | ⟨0, _⟩ => rfl | ⟨1, _⟩ => rfl)
  rw [e1, e0, e2]
  rfl

/-- The second score at (n, k, d): the first one squared. -/
theorem v8_at (n : Fin 8192) (k : Fin 32) (d : Fin 256) :
    val_main_v8 (F := Ideal) x0 x1 x2 (ix3 n k d) = y2 (arr2 x0) (arr2 x1) (arr2 x2) n k d := by
  rw [val_main_v8_apply, v7_at]
  rfl

/-! ## The logits and their row maxima -/

/-- The sum of the squared scores over the features. -/
theorem v9_at (n : Fin 8192) (k : Fin 32) :
    val_main_v9 (F := Ideal) x0 x1 x2 (ix2 n k) = ∑ d : Fin 256, y2 (arr2 x0) (arr2 x1) (arr2 x2) n k d := by
  rw [val_main_v9_apply, val_main_cst_apply, Ideal.ofBits_def, Ideal.ofBits_zero_f32, zero_add]
  refine Finset.sum_congr rfl fun d _ => ?_
  have e : idx_main_v9 (ix2 n k) d = ix3 n k d :=
    funext fun a => Fin.ext (by match a with | ⟨0, _⟩ => rfl | ⟨1, _⟩ => rfl | ⟨2, _⟩ => rfl)
  rw [e, v8_at]

/-- The logit of row `n` for component `k`. -/
theorem v11_at (n : Fin 8192) (k : Fin 32) :
    val_main_v11 (F := Ideal) x0 x1 x2 (ix2 n k) = refLogit (arr2 x0) (arr2 x1) (arr2 x2) n k := by
  rw [val_main_v11_apply, val_main_v10_apply, val_main_cst_0_apply, v9_at]
  rfl

/-- The row index `n` with the component `k` put back on axis 1 is (n, k). -/
theorem lift_row (h : S8192x32.Reduces [1] S8192) (n : Fin 8192) (k : Fin (S8192x32.size 1)) :
    h.lift (ix1 n) k = ix2 n (⟨k.val, k.isLt⟩ : Fin 32) := by
  funext c; apply Fin.ext
  match c with
  | ⟨0, _⟩ => rfl
  | ⟨1, _⟩ => rfl

/-- The fold of `max` from `-inf` over the components of row `n`'s logits. -/
theorem v12_at (n : Fin 8192) :
    val_main_v12 (F := Ideal) x0 x1 x2 (ix1 n)
      = Finset.univ.fold max ninf (refLogit (arr2 x0) (arr2 x1) (arr2 x2) n) := by
  unfold val_main_v12
  have h : S8192x32.Reduces [1] S8192 := by decide
  rw [Host.reduce_eq_fold_single FloatOps.maximumf _ _ reducesTo_S8192x32_S8192_d1 h h_S_]
  have hf : (val_main_v11 (F := Ideal) x0 x1 x2 ∘ h.lift (ix1 n))
      = fun k : Fin 32 => refLogit (arr2 x0) (arr2 x1) (arr2 x2) n k :=
    funext fun k => by
      show val_main_v11 (F := Ideal) x0 x1 x2 (h.lift (ix1 n) k) = _
      rw [lift_row h n k, v11_at]
      rfl
  exact congrArg (fun f => Finset.fold max ninf f (Finset.univ : Finset (Fin 32))) hf

/-- The row maximum as the program takes it. -/
theorem v14_at (n : Fin 8192) :
    val_main_v14 (F := Ideal) x0 x1 x2 (ix1 n) = rowMax (refLogit (arr2 x0) (arr2 x1) (arr2 x2) n) := by
  rw [val_main_v14_apply, val_main_v13_apply, val_main_cst_2_apply, v12_at]
  rfl

/-! ## The softmax weights -/

/-- The logit less its row maximum. -/
theorem v17_at (n : Fin 8192) (k : Fin 32) :
    val_main_v17 (F := Ideal) x0 x1 x2 (ix2 n k)
      = refLogit (arr2 x0) (arr2 x1) (arr2 x2) n k - rowMax (refLogit (arr2 x0) (arr2 x1) (arr2 x2) n) := by
  rw [val_main_v17_apply, v11_at, val_main_v16_apply, val_main_v15_apply]
  have e : idx_main_v15 (idx_main_v16 (ix2 n k)) = ix1 n :=
    funext fun a => Fin.ext (by match a with | ⟨0, _⟩ => rfl)
  rw [e, v14_at]
  rfl

/-- Its exponential. -/
theorem v18_at (n : Fin 8192) (k : Fin 32) :
    val_main_v18 (F := Ideal) x0 x1 x2 (ix2 n k)
      = Ideal.exp (refLogit (arr2 x0) (arr2 x1) (arr2 x2) n k - rowMax (refLogit (arr2 x0) (arr2 x1) (arr2 x2) n)) := by
  rw [val_main_v18_apply, v17_at]
  rfl

/-- The row's sum of exponentials. -/
theorem v19_at (n : Fin 8192) :
    val_main_v19 (F := Ideal) x0 x1 x2 (ix1 n)
      = ∑ j : Fin 32, Ideal.exp (refLogit (arr2 x0) (arr2 x1) (arr2 x2) n j - rowMax (refLogit (arr2 x0) (arr2 x1) (arr2 x2) n)) := by
  rw [val_main_v19_apply, val_main_cst_3_apply, Ideal.ofBits_def, Ideal.ofBits_zero_f32, zero_add]
  refine Finset.sum_congr rfl fun j _ => ?_
  have e : idx_main_v19 (ix1 n) j = ix2 n j :=
    funext fun a => Fin.ext (by match a with | ⟨0, _⟩ => rfl | ⟨1, _⟩ => rfl)
  rw [e, v18_at]

/-- The softmax weight of component `k` in row `n`. -/
theorem v22_at (n : Fin 8192) (k : Fin 32) :
    val_main_v22 (F := Ideal) x0 x1 x2 (ix2 n k) = refGamma (arr2 x0) (arr2 x1) (arr2 x2) n k := by
  rw [val_main_v22_apply, v18_at, val_main_v21_apply, val_main_v20_apply]
  have e : idx_main_v20 (idx_main_v21 (ix2 n k)) = ix1 n :=
    funext fun a => Fin.ext (by match a with | ⟨0, _⟩ => rfl)
  rw [e, v19_at]
  rfl

/-! ## The weighted scores -/

/-- The centred and scaled second score. -/
theorem v26_at (n : Fin 8192) (k : Fin 32) (d : Fin 256) :
    val_main_v26 (F := Ideal) x0 x1 x2 (ix3 n k d)
      = (y2 (arr2 x0) (arr2 x1) (arr2 x2) n k d - one32) * rsqrt2 := by
  rw [val_main_v26_apply, val_main_v24_apply, v8_at, val_main_v23_apply, val_main_cst_4_apply,
    val_main_v25_apply, val_main_cst_5_apply]
  rfl

/-- The weight broadcast along the features. -/
theorem v28_at (n : Fin 8192) (k : Fin 32) (d : Fin 256) :
    val_main_v28 (F := Ideal) x0 x1 x2 (ix3 n k d) = refGamma (arr2 x0) (arr2 x1) (arr2 x2) n k := by
  rw [val_main_v28_apply, val_main_v27_apply]
  have e : idx_main_v27 (idx_main_v28 (ix3 n k d)) = ix2 n k :=
    funext fun a => Fin.ext (by match a with | ⟨0, _⟩ => rfl | ⟨1, _⟩ => rfl)
  rw [e, v22_at]

/-- The same broadcast, as the program takes it a second time. -/
theorem v31_at (n : Fin 8192) (k : Fin 32) (d : Fin 256) :
    val_main_v31 (F := Ideal) x0 x1 x2 (ix3 n k d) = refGamma (arr2 x0) (arr2 x1) (arr2 x2) n k := by
  rw [val_main_v31_apply, val_main_v27_apply]
  have e : idx_main_v27 (idx_main_v31 (ix3 n k d)) = ix2 n k :=
    funext fun a => Fin.ext (by match a with | ⟨0, _⟩ => rfl | ⟨1, _⟩ => rfl)
  rw [e, v22_at]

/-- The weighted second score. -/
theorem v29_at (n : Fin 8192) (k : Fin 32) (d : Fin 256) :
    val_main_v29 (F := Ideal) x0 x1 x2 (ix3 n k d)
      = refGamma (arr2 x0) (arr2 x1) (arr2 x2) n k * ((y2 (arr2 x0) (arr2 x1) (arr2 x2) n k d - one32) * rsqrt2) := by
  rw [val_main_v29_apply, v28_at, v26_at]
  rfl

/-- The weighted first score. -/
theorem v32_at (n : Fin 8192) (k : Fin 32) (d : Fin 256) :
    val_main_v32 (F := Ideal) x0 x1 x2 (ix3 n k d)
      = refGamma (arr2 x0) (arr2 x1) (arr2 x2) n k * y1 (arr2 x0) (arr2 x1) (arr2 x2) n k d := by
  rw [val_main_v32_apply, v31_at, v7_at]
  rfl

/-! ## The rows flattened over (component, feature), and the two halves side by side -/

/-- Column `j` of a flattened row is component `j / 256`, feature `j % 256`. -/
theorem flat_idx (n : Fin 8192) (j : Fin 8192) :
    idx_main_v30 (ix2 n j) = ix3 n (⟨j.val / 256, flat_lo j.isLt⟩ : Fin 32) (⟨j.val % 256, flat_mod _⟩ : Fin 256) := by
  have hn := n.isLt
  have hj := j.isLt
  funext a
  apply Fin.ext
  match a with
  | ⟨0, _⟩ => show (n.val * 8192 + j.val) / 8192 = n.val; omega
  | ⟨1, _⟩ => show (n.val * 8192 + j.val) / 256 % 32 = j.val / 256; omega
  | ⟨2, _⟩ => show (n.val * 8192 + j.val) % 256 = j.val % 256; omega

/-- The weighted second scores of row `n`, flattened. -/
theorem v30_at (n : Fin 8192) (j : Fin 8192) :
    val_main_v30 (F := Ideal) x0 x1 x2 (ix2 n j)
      = refGamma (arr2 x0) (arr2 x1) (arr2 x2) n ⟨j.val / 256, flat_lo j.isLt⟩
        * ((y2 (arr2 x0) (arr2 x1) (arr2 x2) n ⟨j.val / 256, flat_lo j.isLt⟩ ⟨j.val % 256, flat_mod _⟩ - one32) * rsqrt2) := by
  rw [val_main_v30_apply, flat_idx, v29_at]

/-- The weighted first scores of row `n`, flattened. -/
theorem v33_at (n : Fin 8192) (j : Fin 8192) :
    val_main_v33 (F := Ideal) x0 x1 x2 (ix2 n j)
      = refGamma (arr2 x0) (arr2 x1) (arr2 x2) n ⟨j.val / 256, flat_lo j.isLt⟩
        * y1 (arr2 x0) (arr2 x1) (arr2 x2) n ⟨j.val / 256, flat_lo j.isLt⟩ ⟨j.val % 256, flat_mod _⟩ := by
  rw [val_main_v33_apply]
  show val_main_v32 (F := Ideal) x0 x1 x2 (idx_main_v30 (ix2 n j)) = _
  rw [flat_idx, v32_at]

/-- A column below 8192 of the joined array reads the first half. -/
theorem v34_lo (n : Fin 8192) (q : Fin 16384) (h : q.val < 8192) :
    val_main_v34 (F := Ideal) x0 x1 x2 (ix2 n q) = val_main_v30 (F := Ideal) x0 x1 x2 (ix2 n (⟨q.val, h⟩ : Fin 8192)) := by
  unfold val_main_v34
  exact concatenate_pair_apply_left (t := S8192x16384) (s₁ := S8192x8192) (s₂ := S8192x8192) (1 : Fin 2) _ _
    concatenates_S8192x8192_S8192x8192_S8192x16384_d1 (ix2 n q) rfl (ix2 n (⟨q.val, h⟩ : Fin 8192))
    (fun b => by match b with | ⟨0, _⟩ => rfl | ⟨1, _⟩ => rfl)

/-- A column from 8192 on reads the second half, 8192 columns back. -/
theorem v34_hi (n : Fin 8192) (q : Fin 16384) (h : ¬ q.val < 8192) :
    val_main_v34 (F := Ideal) x0 x1 x2 (ix2 n q)
      = val_main_v33 (F := Ideal) x0 x1 x2 (ix2 n (⟨q.val - 8192, by have := q.isLt; omega⟩ : Fin 8192)) := by
  unfold val_main_v34
  exact concatenate_pair_apply_right (t := S8192x16384) (s₁ := S8192x8192) (s₂ := S8192x8192) (1 : Fin 2) _ _
    concatenates_S8192x8192_S8192x8192_S8192x16384_d1 (ix2 n q) rfl rfl
    (ix2 n (⟨q.val - 8192, by have := q.isLt; omega⟩ : Fin 8192))
    (fun b hb => by
      match b with
      | ⟨0, _⟩ => rfl
      | ⟨1, _⟩ => exact absurd rfl hb)
    (by show q.val - 8192 + 8192 = q.val; omega)

/-! ## The sum over the rows and the division by their number -/

/-- Entry `q` of the column sums of the joined array. -/
theorem v35_at (q : Fin 16384) :
    val_main_v35 (F := Ideal) x0 x1 x2 (ix1 q)
      = ∑ n : Fin 8192, val_main_v34 (F := Ideal) x0 x1 x2 (ix2 n q) := by
  rw [val_main_v35_apply, val_main_cst_6_apply, Ideal.ofBits_def, Ideal.ofBits_zero_f32, zero_add]
  refine Finset.sum_congr rfl fun n _ => ?_
  have e : idx_main_v35 (ix1 q) n = ix2 n q :=
    funext fun a => Fin.ext (by match a with | ⟨0, _⟩ => rfl | ⟨1, _⟩ => rfl)
  rw [e]

/-- Entry `q` of the result: the column sum divided by the number of rows. -/
theorem v37_at (q : Fin 16384) :
    val_main_v37 (F := Ideal) x0 x1 x2 (ix1 q)
      = Ideal.div (∑ n : Fin 8192, val_main_v34 (F := Ideal) x0 x1 x2 (ix2 n q)) n8192 := by
  rw [val_main_v37_apply, v35_at, val_main_v36_apply, val_main_cst_7_apply]
  rfl

/-- Entry `q` of the result is entry `q` of the flat arrangement of the two pooled halves. -/
theorem ref_value_at (q : Fin 16384) :
    val_main_v37 (F := Ideal) x0 x1 x2 (ix1 q)
      = flatOut (refSigma (arr2 x0) (arr2 x1) (arr2 x2)) (refMu (arr2 x0) (arr2 x1) (arr2 x2)) q := by
  rw [v37_at]
  unfold flatOut
  by_cases h : q.val < 8192
  · rw [dif_pos h]
    unfold refSigma
    refine congrArg (fun s => Ideal.div s n8192) (Finset.sum_congr rfl fun n _ => ?_)
    rw [v34_lo x0 x1 x2 n q h, v30_at]
  · rw [dif_neg h]
    unfold refMu
    refine congrArg (fun s => Ideal.div s n8192) (Finset.sum_congr rfl fun n _ => ?_)
    rw [v34_hi x0 x1 x2 n q h, v33_at]
    have hq := q.isLt
    have e : (⟨(q.val - 8192) % 256, flat_mod _⟩ : Fin 256) = ⟨q.val % 256, flat_mod _⟩ :=
      Fin.ext (by show (q.val - 8192) % 256 = q.val % 256; omega)
    rw [e]

/-- THE REFERENCE'S RESULT: the flat arrangement of the pooled second-score half and the pooled first-score half. -/
theorem ref_value (x0 : (⟨S8192x256, .f32⟩ : BufTy).Contents (Elt Ideal)) (x1 x2 : (⟨S32x256, .f32⟩ : BufTy).Contents (Elt Ideal)) :
    val_main_v37 (F := Ideal) x0 x1 x2
      = flatArr (refSigma (arr2 x0) (arr2 x1) (arr2 x2)) (refMu (arr2 x0) (arr2 x1) (arr2 x2)) := by
  funext i
  refine (congrArg (val_main_v37 (F := Ideal) x0 x1 x2) (eq_ix1 (n := 16384) i)).trans ?_
  exact ref_value_at x0 x1 x2 (i 0)

end Cert.ReferenceIdeal.RefValue

end
-- ==== Proof.Blocks.lean ====
/-
  What the region finds in its windows: a tile of 512 rows of `x`, the argument `w`, and the five weight tables the
  host computes from `w` and `b` before the launch, each read at an index.
-/
import proofs.«154990_j30846455119907_2_alg».proof.Proof.Gen.KernelIdeal.Frame
import proofs.«154990_j30846455119907_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.PureOps.Ideal.Laws

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.Fisher

variable (m : (ℓ : Loc nD τ sig) → Buf (Elt Ideal) ℓ) (c : Dev nD)

/-- The three argument arrays, read by coordinates. -/
abbrev X : Fin 8192 → Fin 256 → EReal := arr2 (a := 8192) (b := 256) (m ((c.tc : Thread nD τ).loc main_arg0))
abbrev W : Fin 32 → Fin 256 → EReal := arr2 (a := 32) (b := 256) (m ((c.tc : Thread nD τ).loc main_arg1))
abbrev B : Fin 32 → Fin 256 → EReal := arr2 (a := 32) (b := 256) (m ((c.tc : Thread nD τ).loc main_arg2))

/-! ## The tables computed before the launch -/

theorem table_w2 (k : Fin 32) (d : Fin 256) : V m c main_v0 (ix2 k d) = w2 (W m c) k d := by
  have e : (V m c main_v0 : S32x256.Idx → EReal)
      = mulf (F := Ideal) (s := S32x256) (φ := .f32) (m ((c.tc : Thread nD τ).loc main_arg1)) (m ((c.tc : Thread nD τ).loc main_arg1)) := by
    show StableHlo.after hostOps0 (fun b => m (c, b)) (Proc.devRef .tc main_v0) = _
    after_results <;> rfl
  exact (congrFun e (ix2 k d)).trans rfl

theorem table_wb (k : Fin 32) (d : Fin 256) : V m c main_v1 (ix2 k d) = wb (W m c) (B m c) k d := by
  have e : (V m c main_v1 : S32x256.Idx → EReal)
      = mulf (F := Ideal) (s := S32x256) (φ := .f32) (m ((c.tc : Thread nD τ).loc main_arg1)) (m ((c.tc : Thread nD τ).loc main_arg2)) := by
    show StableHlo.after hostOps0 (fun b => m (c, b)) (Proc.devRef .tc main_v1) = _
    after_results <;> rfl
  exact (congrFun e (ix2 k d)).trans rfl

theorem table_wb2 (k : Fin 32) (d : Fin 256) : V m c main_v4 (ix2 k d) = wb2 (W m c) (B m c) k d := by
  have e : (V m c main_v4 : S32x256.Idx → EReal)
      = mulf (F := Ideal) (s := S32x256) (φ := .f32) (mulf (F := Ideal) (s := S32x256) (φ := .f32) (broadcastInDim S32x256 ![] bcast_S_S32x256 (constant (F := Ideal) S_ .f32 0x40000000#32))
          (mulf (F := Ideal) (s := S32x256) (φ := .f32) (m ((c.tc : Thread nD τ).loc main_arg1)) (m ((c.tc : Thread nD τ).loc main_arg1))))
          (m ((c.tc : Thread nD τ).loc main_arg2)) := by
    show StableHlo.after hostOps0 (fun b => m (c, b)) (Proc.devRef .tc main_v4) = _
    after_results <;> rfl
  exact (congrFun e (ix2 k d)).trans rfl

theorem table_w2b2 (k : Fin 32) (d : Fin 256) : V m c main_v6 (ix2 k d) = w2b2 (W m c) (B m c) k d := by
  have e : (V m c main_v6 : S32x256.Idx → EReal)
      = mulf (F := Ideal) (s := S32x256) (φ := .f32) (mulf (F := Ideal) (s := S32x256) (φ := .f32) (mulf (F := Ideal) (s := S32x256) (φ := .f32) (m ((c.tc : Thread nD τ).loc main_arg1)) (m ((c.tc : Thread nD τ).loc main_arg1)))
          (m ((c.tc : Thread nD τ).loc main_arg2))) (m ((c.tc : Thread nD τ).loc main_arg2)) := by
    show StableHlo.after hostOps0 (fun b => m (c, b)) (Proc.devRef .tc main_v6) = _
    after_results <;> rfl
  exact (congrFun e (ix2 k d)).trans rfl

theorem lift_k (h : S32x256.Reduces [1] S32) (k : Fin 32) (d : Fin 256) : h.lift (ix1 k) d = ix2 k d := by
  funext a; apply Fin.ext
  match a with
  | ⟨0, _⟩ => rfl
  | ⟨1, _⟩ => rfl

theorem table_cb (u : Fin 1) (k : Fin 32) : V m c main_v8 (ix2 u k) = cbias (W m c) (B m c) k := by
  have e : (V m c main_v8 : S1x32.Idx → EReal)
      = shapeCast S1x32 (Host.reduceAdd (F := Ideal)
          (mulf (F := Ideal) (s := S32x256) (φ := .f32) (mulf (F := Ideal) (s := S32x256) (φ := .f32)
            (mulf (F := Ideal) (s := S32x256) (φ := .f32) (m ((c.tc : Thread nD τ).loc main_arg1)) (m ((c.tc : Thread nD τ).loc main_arg1)))
            (m ((c.tc : Thread nD τ).loc main_arg2))) (m ((c.tc : Thread nD τ).loc main_arg2)))
          (constant (F := Ideal) S_ .f32 0x00000000#32) reducesTo_S32x256_S32_d1 h_S_) shapeCasts_S32_S1x32 := by
    show StableHlo.after hostOps0 (fun b => m (c, b)) (Proc.devRef .tc main_v8) = _
    after_results <;> rfl
  refine (congrFun e (ix2 u k)).trans ?_
  refine (shapeCast_a_1a_apply _ shapeCasts_S32_S1x32 u k).trans ?_
  simp only [Host.reduceAdd, Ideal.hostReduceAdd_def]
  rw [Ideal.hostReduceAdd_single reducesTo_S32x256_S32_d1 (by decide)]
  unfold cbias
  refine (congrArg (· + _) Ideal.ofBits_zero_f32).trans ?_
  refine (zero_add (M := EReal) _).trans ?_
  refine Finset.sum_congr rfl fun d _ => ?_
  refine (congrArg _ (lift_k _ k d)).trans ?_
  rfl

/-! ## The windows' blocks -/

theorem point_lt (t : Fin cfg0.N) : t.val < 16 := lt_of_lt_of_eq t.isLt (show cfg0.N = 16 from N_0)
/-- A grid point as one of the sixteen tiles. -/
def tileOf (t : Fin cfg0.N) : Fin 16 := ⟨t.val, point_lt t⟩

theorem index_x : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_6 : ∀ t : Fin cfg0.N, win0_6.index t 0 = 0 ∧ win0_6.index t 1 = 0 :=
  (by decide +kernel : ∀ t : Fin grid0.N, win0_6.index t 0 = 0 ∧ win0_6.index t 1 = 0)

/-- Tile `t` of `x`: row `r` of the block is row `512 t + r` of the array. -/
theorem block_x (t : Fin cfg0.N) (r : Fin 512) (d : Fin 256) :
    (iblk m c 0 t : Vec Ideal S512x256 .f32) (ix2 r d) = X m c (row (tileOf t) r) d := by
  unfold iblk
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 512 + 1 * r.val = 512 * t.val + r.val; rw [(index_x t).1]; omega
  | ⟨1, _⟩ => show win0_0.index t 1 * 256 + 1 * d.val = d.val; rw [(index_x t).2]; omega

theorem block_w (t : Fin cfg0.N) (p : Fin 32) (q : Fin 256) :
    (iblk m c 1 t : Vec Ideal S32x256 .f32) (ix2 p q) = V m c main_arg1 (ix2 p q) := by
  unfold iblk
  rw [View.read_apply]
  show V m c main_arg1 _ = _
  refine congrArg (V m c main_arg1) (funext fun a => Fin.ext ?_)
  match a with
  | ⟨0, _⟩ => show win0_1.index t 0 * 32 + 1 * p.val = p.val; rw [(index_1 t).1]; omega
  | ⟨1, _⟩ => show win0_1.index t 1 * 256 + 1 * q.val = q.val; rw [(index_1 t).2]; omega

theorem block_wb (t : Fin cfg0.N) (p : Fin 32) (q : Fin 256) :
    (iblk m c 2 t : Vec Ideal S32x256 .f32) (ix2 p q) = V m c main_v1 (ix2 p q) := by
  unfold iblk
  rw [View.read_apply]
  show V m c main_v1 _ = _
  refine congrArg (V m c main_v1) (funext fun a => Fin.ext ?_)
  match a with
  | ⟨0, _⟩ => show win0_2.index t 0 * 32 + 1 * p.val = p.val; rw [(index_2 t).1]; omega
  | ⟨1, _⟩ => show win0_2.index t 1 * 256 + 1 * q.val = q.val; rw [(index_2 t).2]; omega

theorem block_w2 (t : Fin cfg0.N) (p : Fin 32) (q : Fin 256) :
    (iblk m c 3 t : Vec Ideal S32x256 .f32) (ix2 p q) = V m c main_v0 (ix2 p q) := by
  unfold iblk
  rw [View.read_apply]
  show V m c main_v0 _ = _
  refine congrArg (V m c main_v0) (funext fun a => Fin.ext ?_)
  match a with
  | ⟨0, _⟩ => show win0_3.index t 0 * 32 + 1 * p.val = p.val; rw [(index_3 t).1]; omega
  | ⟨1, _⟩ => show win0_3.index t 1 * 256 + 1 * q.val = q.val; rw [(index_3 t).2]; omega

theorem block_wb2 (t : Fin cfg0.N) (p : Fin 32) (q : Fin 256) :
    (iblk m c 4 t : Vec Ideal S32x256 .f32) (ix2 p q) = V m c main_v4 (ix2 p q) := by
  unfold iblk
  rw [View.read_apply]
  show V m c main_v4 _ = _
  refine congrArg (V m c main_v4) (funext fun a => Fin.ext ?_)
  match a with
  | ⟨0, _⟩ => show win0_4.index t 0 * 32 + 1 * p.val = p.val; rw [(index_4 t).1]; omega
  | ⟨1, _⟩ => show win0_4.index t 1 * 256 + 1 * q.val = q.val; rw [(index_4 t).2]; omega

theorem block_w2b2 (t : Fin cfg0.N) (p : Fin 32) (q : Fin 256) :
    (iblk m c 5 t : Vec Ideal S32x256 .f32) (ix2 p q) = V m c main_v6 (ix2 p q) := by
  unfold iblk
  rw [View.read_apply]
  show V m c main_v6 _ = _
  refine congrArg (V m c main_v6) (funext fun a => Fin.ext ?_)
  match a with
  | ⟨0, _⟩ => show win0_5.index t 0 * 32 + 1 * p.val = p.val; rw [(index_5 t).1]; omega
  | ⟨1, _⟩ => show win0_5.index t 1 * 256 + 1 * q.val = q.val; rw [(index_5 t).2]; omega

theorem block_cb (t : Fin cfg0.N) (p : Fin 1) (q : Fin 32) :
    (iblk m c 6 t : Vec Ideal S1x32 .f32) (ix2 p q) = V m c main_v8 (ix2 p q) := by
  unfold iblk
  rw [View.read_apply]
  show V m c main_v8 _ = _
  refine congrArg (V m c main_v8) (funext fun a => Fin.ext ?_)
  match a with
  | ⟨0, _⟩ => show win0_6.index t 0 * 1 + 1 * p.val = p.val; rw [(index_6 t).1]; omega
  | ⟨1, _⟩ => show win0_6.index t 1 * 32 + 1 * q.val = q.val; rw [(index_6 t).2]; omega

end Cert.KernelIdeal.Blocks

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.LibRowContraction.lean ====
/-
  A product of two matrices contracted along their common FIRST axis, `[R, a] × [R, b] → [a, b]` (`Aᵀ · B`), read at
  an index, over arbitrary sizes.

  At the extended reals a kernel's matrix product into a zero accumulator and the host's product of the same operands
  are both the textbook contraction: entry `(i, o)` is `∑ r, A (r, i) · B (r, o)`, the sum over the shared rows.
-/
import Idealize.ShloMosaic.Lib.ValueIdx
import Idealize.ShloMosaic.Lib.KernelVsHost
import Idealize.ShloMosaic.PureOps.Ideal.Laws

noncomputable section

namespace Cert.Lib.RowContraction

open Idealize.ShloMosaic Idealize.ShloMosaic.ValueIdx

variable {R a b : Nat} {φ₁ φ₂ : FTy}

/-- The host's product with both operands contracted along axis 0, at `(i, o)`: the sum over the shared row index. -/
theorem dotGeneral_rows_apply
    (w : DotDims.WF ⟨2, ![R, a]⟩ ⟨2, ![R, b]⟩ ⟨2, ![a, b]⟩ [0] [0] [1] [1] [] [])
    (prec : Option ContractPrecision) (A : FVec Ideal ⟨2, ![R, a]⟩ φ₁) (B : FVec Ideal ⟨2, ![R, b]⟩ φ₂)
    (i : Fin a) (o : Fin b) :
    Host.dotGeneral (⟨[0], [0], [1], [1], [], [], w⟩ : DotDims _ _ _) prec A B (ix2 i o)
      = ∑ r : Fin R, A (ix2 r i) * B (ix2 r o) := by
  show FloatOps.dotGeneral _ prec _ A B (ix2 i o) = _
  rw [Ideal.dotGeneral_apply,
    ← Equiv.sum_comp (contrEquiv1 (⟨[0], [0], [1], [1], [], [], w⟩ : DotDims _ _ _) R rfl rfl).symm]
  refine Finset.sum_congr rfl fun r _ => ?_
  have c2 := contrEquiv1_symm_val
    (⟨[0], [0], [1], [1], [], [], w⟩ : DotDims ⟨2, ![R, a]⟩ ⟨2, ![R, b]⟩ ⟨2, ![a, b]⟩) R rfl rfl r
  have l2 : (⟨[0], [0], [1], [1], [], [], w⟩ : DotDims ⟨2, ![R, a]⟩ ⟨2, ![R, b]⟩ ⟨2, ![a, b]⟩).lhsIdx (ix2 i o)
      ((contrEquiv1 _ R rfl rfl).symm r) = ix2 r i := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![R, a]⟩ ⟨2, ![R, b]⟩ ⟨2, ![a, b]⟩).rhsIdx (ix2 i o)
      ((contrEquiv1 _ R rfl rfl).symm r) = ix2 r o := by
    funext ax; apply Fin.ext
    match ax with
    | ⟨0, _⟩ => simp [DotDims.rhsIdx]; exact c2
    | ⟨1, _⟩ => simp [DotDims.rhsIdx]; rfl
  rw [l2, r2]

/-- A kernel's product of the same kind into the zero splat, at `(i, o)`: the same sum. -/
theorem matmul_rows_apply
    (w : DotDims.WF ⟨2, ![R, a]⟩ ⟨2, ![R, b]⟩ ⟨2, ![a, b]⟩ [0] [0] [1] [1] [] [])
    (prec : Option ContractPrecision) (A : FVec Ideal ⟨2, ![R, a]⟩ φ₁) (B : FVec Ideal ⟨2, ![R, b]⟩ φ₂)
    (i : Fin a) (o : Fin b) :
    matmul (⟨[0], [0], [1], [1], [], [], w⟩ : DotDims _ _ _) prec A B (constant ⟨2, ![a, b]⟩ .f32 0x00000000#32) (ix2 i o)
      = ∑ r : Fin R, A (ix2 r i) * B (ix2 r o) := by
  rw [matmul_zero_eq_dotGeneral]
  exact dotGeneral_rows_apply w prec A B i o

end Cert.Lib.RowContraction

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.Tile.lean ====
/-
  One tile of 512 rows, read at an index over the extended reals: the tile's softmax weights, its three
  contributions to the running sums, and the block a core writes from its sums at its last step.
-/
import proofs.«154990_j30846455119907_2_alg».proof.Proof.Gen.KernelIdeal.Skeleton
import proofs.«154990_j30846455119907_2_alg».proof.Proof.Spec
import proofs.«154990_j30846455119907_2_alg».proof.Proof.LibTransposedProduct
import proofs.«154990_j30846455119907_2_alg».proof.Proof.LibRowContraction
import proofs.«154990_j30846455119907_2_alg».proof.Proof.LibRepeat
import proofs.«154990_j30846455119907_2_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators
open Idealize.ShloMosaic Idealize.ShloMosaic.ValueIdx

namespace Cert.KernelIdeal.Tile

open Cert.KernelIdeal Cert.KernelIdeal.Gen Cert.Fisher

/-! ## The softmax of a [512, 32] block of logits, row by row -/

/-- The kernel's softmax lines applied to a block of logits. -/
def softmaxRows (L : FVec Ideal S512x32 .f32) : FVec Ideal S512x32 .f32 :=
  have v18 : FVec Ideal S512 .f32 := multiReduction .maximumf [1] S512 L 0xFF800000#32 reduces_S512x32_S512 (.inl rfl) rfl
  have v19 : FVec Ideal S512 .f32 := broadcast S512 (Scalar.ofBits .f32 0xFF800000#32)
  have v20 : FVec Ideal S512 .f32 := maximumf v19 v18
  have v21 : FVec Ideal S512x1 .f32 := shapeCast S512x1 v20 shapeCasts_S512_S512x1
  have v22 : FVec Ideal S512x32 .f32 := broadcastTo S512x32 v21 broadcasts_S512x1_S512x32
  have v23 : FVec Ideal S512x32 .f32 := subf L v22
  have v24 : FVec Ideal S512x32 .f32 := exp v23
  have v25 : FVec Ideal S512 .f32 := multiReduction .add [1] S512 v24 0x00000000#32 reduces_S512x32_S512 (.inl rfl) rfl
  have v26 : FVec Ideal S512x1 .f32 := shapeCast S512x1 v25 shapeCasts_S512_S512x1
  have v27 : FVec Ideal S512x32 .f32 := broadcastTo S512x32 v26 broadcasts_S512x1_S512x32
  divf v24 v27

/-- Row `r` with column `k` put back is `(r, k)`. -/
theorem lift_row (r : Fin 512) (k : Fin 32) : reduces_S512x32_S512.lift (ix1 r) k = ix2 r k := by
  funext a; apply Fin.ext
  match a with
  | ⟨0, _⟩ => rfl
  | ⟨1, _⟩ => rfl

theorem exp_apply {s : Shape} (a : FVec Ideal s .f32) (i : s.Idx) : exp a i = Ideal.exp (a i) := rfl

theorem rowMax_apply (L : FVec Ideal S512x32 .f32) (hφ : FKind.Formats .f32)
    (hacc : (0xFF800000#32 : BitVec 32) = 0xFF800000#32) (r : Fin 512) :
    maximumf (broadcast S512 (Scalar.ofBits .f32 0xFF800000#32))
      (multiReduction .maximumf [1] S512 L 0xFF800000#32 reduces_S512x32_S512 hφ hacc) (ix1 r)
      = rowMax (fun k => L (ix2 r k)) := by
  refine (maximumf_apply _ _ _).trans ?_
  refine (congrArg (max _) (Ideal.multiReduction_maximumf_single L 0xFF800000#32 reduces_S512x32_S512 hφ hacc (ix1 r))).trans ?_
  unfold rowMax
  refine congrArg (max _) (congrArg (Finset.fold max _ · Finset.univ) ?_)
  funext k
  exact congrArg L (lift_row r k)

theorem rowSum_apply (E : FVec Ideal S512x32 .f32) (hφ : FKind.Formats .f32)
    (hacc : (0x00000000#32 : BitVec 32) = 0x00000000#32) (r : Fin 512) :
    multiReduction .add [1] S512 E 0x00000000#32 reduces_S512x32_S512 hφ hacc (ix1 r) = ∑ k : Fin 32, E (ix2 r k) :=
  (Ideal.multiReduction_add_single E 0x00000000#32 reduces_S512x32_S512 hφ hacc (ix1 r)).trans
    (Finset.sum_congr rfl fun k _ => congrArg E (lift_row r k))

/-- A vector of 512 entries laid down a column and repeated across 32 columns reads, at `(r, k)`, entry `r`. -/
theorem column_apply (v : FVec Ideal S512 .f32) (r : Fin 512) (k : Fin 32) :
    broadcastTo S512x32 (shapeCast S512x1 v shapeCasts_S512_S512x1) broadcasts_S512x1_S512x32 (ix2 r k) = v (ix1 r) :=
  (Cert.Lib.Repeat.colRepeat_apply _ broadcasts_S512x1_S512x32 r k).trans
    (Cert.Lib.Column.shapeCast_a_a1_apply v shapeCasts_S512_S512x1 r 0)

/-- The block's softmax at `(r, k)` is the softmax weight `k` of row `r`. -/
theorem softmaxRows_apply (L : FVec Ideal S512x32 .f32) (r : Fin 512) (k : Fin 32) :
    softmaxRows L (ix2 r k) = weights (fun k' => L (ix2 r k')) k := by
  unfold softmaxRows
  dsimp only
  unfold weights
  simp only [divf_apply, exp_apply, subf_apply, column_apply]
  refine congrArg₂ Ideal.div (congrArg (fun M => Ideal.exp (L (ix2 r k) - M)) (rowMax_apply L _ _ r)) ?_
  refine (rowSum_apply _ _ _ r).trans (Finset.sum_congr rfl fun j _ => ?_)
  simp only [exp_apply, subf_apply, column_apply]
  exact congrArg (fun M => Ideal.exp (L (ix2 r j) - M)) (rowMax_apply L _ _ r)

/-! ## The tile's logits -/

section
variable (x0 : FVec Ideal S512x256 .f32) (x3 x4 : FVec Ideal S32x256 .f32) (x6 : FVec Ideal S1x32 .f32)

/-- The kernel's logit lines: two products against the weight tables, the bias row, the factor `-½`. -/
def logitBlock : FVec Ideal S512x32 .f32 :=
  have v10 : FVec Ideal S1x32 .f32 := shapeCast S1x32 x6 shapeCasts_S1x32_S1x32
  have cst : FVec Ideal S512x32 .f32 := constant S512x32 .f32 0x00000000#32
  have v11 : FVec Ideal S512x32 .f32 := matmul dot_S512x256_S32x256_S512x32_1_1_0_0_n_n (some .fp32) (k0_pay8 (F := Ideal) x0) (k0_pay9 (F := Ideal) x3) cst
  have v12 : FVec Ideal S512x32 .f32 := matmul dot_S512x256_S32x256_S512x32_1_1_0_0_n_n (some .fp32) x0 (k0_pay10 (F := Ideal) x4) cst
  have v13 : FVec Ideal S512x32 .f32 := addf v11 v12
  have v14 : FVec Ideal S512x32 .f32 := broadcastTo S512x32 v10 broadcasts_S1x32_S512x32
  have v15 : FVec Ideal S512x32 .f32 := addf v13 v14
  have v16 : FVec Ideal S512x32 .f32 := broadcast S512x32 (Scalar.ofBits .f32 0xBF000000#32)
  mulf v16 v15

/-- The tile's weights are the row softmax of its logits. -/
theorem weights_eq : k0_pay11 (F := Ideal) x0 x3 x4 x6 = softmaxRows (logitBlock x0 x3 x4 x6) := rfl

theorem square_apply (r : Fin 512) (d : Fin 256) : k0_pay8 (F := Ideal) x0 (ix2 r d) = x0 (ix2 r d) * x0 (ix2 r d) := rfl
theorem table_w2 : k0_pay9 (F := Ideal) x3 = x3 := shapeCast_self x3 _
theorem table_wb2 : k0_pay10 (F := Ideal) x4 = x4 := shapeCast_self x4 _

/-- The logit of row `r` for component `k`. -/
theorem logitBlock_apply (r : Fin 512) (k : Fin 32) :
    logitBlock x0 x3 x4 x6 (ix2 r k)
      = chalf * ((∑ d : Fin 256, (x0 (ix2 r d) * x0 (ix2 r d)) * x3 (ix2 k d) + ∑ d : Fin 256, x0 (ix2 r d) * x4 (ix2 k d))
          + x6 (ix2 (0 : Fin 1) k)) := by
  unfold logitBlock
  try dsimp only
  rw [mulf_apply, addf_apply, addf_apply, broadcast_apply,
    Cert.Lib.Repeat.rowRepeat_apply _ broadcasts_S1x32_S512x32 r k, shapeCast_self,
    Cert.Lib.TransposedProduct.matmul_apply dot_S512x256_S32x256_S512x32_1_1_0_0_n_n rfl (some .fp32) (k0_pay8 (F := Ideal) x0) (k0_pay9 (F := Ideal) x3) r k,
    Cert.Lib.TransposedProduct.matmul_apply dot_S512x256_S32x256_S512x32_1_1_0_0_n_n rfl (some .fp32) x0 (k0_pay10 (F := Ideal) x4) r k,
    table_w2, table_wb2]
  rfl

/-- The tile's softmax weight of row `r` for component `k`. -/
theorem tileWeights_apply (r : Fin 512) (k : Fin 32) :
    k0_pay11 (F := Ideal) x0 x3 x4 x6 (ix2 r k) = weights (fun k' => logitBlock x0 x3 x4 x6 (ix2 r k')) k := by
  rw [weights_eq]; exact softmaxRows_apply _ r k

/-! ## The tile's contributions to the three running sums -/

/-- `∑_r γ(r, k) · x(r, d)`, added to what the sum held. -/
theorem sumA_apply (acc : FVec Ideal S32x256 .f32) (k : Fin 32) (d : Fin 256) :
    k0_pay1 (F := Ideal) (k0_pay14 (F := Ideal) x0 x3 x4 x6 acc) (ix2 k d)
      = acc (ix2 k d) + ∑ r : Fin 512, k0_pay11 (F := Ideal) x0 x3 x4 x6 (ix2 r k) * x0 (ix2 r d) := by
  unfold k0_pay1 k0_pay14
  dsimp only
  rw [shapeCast_self, addf_apply]
  exact congrArg (acc (ix2 k d) + ·)
    (Cert.Lib.RowContraction.matmul_rows_apply dot_S512x32_S512x256_S32x256_0_0_1_1_n_n_wf (some .fp32) (k0_pay11 (F := Ideal) x0 x3 x4 x6) x0 k d)

/-- `∑_r γ(r, k) · x(r, d)²`, added to what the sum held. -/
theorem sumB_apply (acc : FVec Ideal S32x256 .f32) (k : Fin 32) (d : Fin 256) :
    k0_pay2 (F := Ideal) (k0_pay12 (F := Ideal) x0 x3 x4 x6) acc (ix2 k d)
      = acc (ix2 k d) + ∑ r : Fin 512, k0_pay11 (F := Ideal) x0 x3 x4 x6 (ix2 r k) * (x0 (ix2 r d) * x0 (ix2 r d)) := by
  unfold k0_pay2 k0_pay12
  dsimp only
  rw [shapeCast_self, addf_apply]
  exact congrArg (acc (ix2 k d) + ·)
    (Cert.Lib.RowContraction.matmul_rows_apply dot_S512x32_S512x256_S32x256_0_0_1_1_n_n_wf (some .fp32) (k0_pay11 (F := Ideal) x0 x3 x4 x6) (k0_pay8 (F := Ideal) x0) k d)

theorem lift_col (k : Fin 32) (r : Fin 512) : reduces_S512x32_S32.lift (ix1 k) r = ix2 r k := by
  funext a; apply Fin.ext
  match a with
  | ⟨0, _⟩ => rfl
  | ⟨1, _⟩ => rfl

theorem colSum_apply (E : FVec Ideal S512x32 .f32) (hφ : FKind.Formats .f32)
    (hacc : (0x00000000#32 : BitVec 32) = 0x00000000#32) (k : Fin 32) :
    multiReduction .add [0] S32 E 0x00000000#32 reduces_S512x32_S32 hφ hacc (ix1 k) = ∑ r : Fin 512, E (ix2 r k) :=
  (Ideal.multiReduction_add_single E 0x00000000#32 reduces_S512x32_S32 hφ hacc (ix1 k)).trans
    (Finset.sum_congr rfl fun r _ => congrArg E (lift_col k r))

/-- `∑_r γ(r, k)`, added to what the sum held. -/
theorem sumC_apply (acc : FVec Ideal S32x1 .f32) (k : Fin 32) (u : Fin 1) :
    k0_pay3 (F := Ideal) (k0_pay13 (F := Ideal) x0 x3 x4 x6) acc (ix2 k u)
      = acc (ix2 k u) + ∑ r : Fin 512, k0_pay11 (F := Ideal) x0 x3 x4 x6 (ix2 r k) := by
  unfold k0_pay3 k0_pay13
  dsimp only
  rw [shapeCast_self, addf_apply]
  refine congrArg (acc (ix2 k u) + ·) ?_
  refine (transpose_ix2_apply _ transposes_S1x32_p1_0_S32x1 k u).trans ?_
  refine (shapeCast_a_1a_apply _ shapeCasts_S32_S1x32 u k).trans ?_
  exact colSum_apply _ _ _ k

end

/-! ## The block a core writes from its sums -/

section
variable (v6 v8 v52 v53 v55 v57 v58 : FVec Ideal S32x256 .f32) (v59 : FVec Ideal S32x1 .f32)

/-- A column of 32 entries repeated across 256 columns reads, at `(k, d)`, entry `k`. -/
theorem count_apply (k : Fin 32) (d : Fin 256) :
    broadcastTo S32x256 v59 broadcasts_S32x1_S32x256 (ix2 k d) = v59 (ix2 k (0 : Fin 1)) :=
  Cert.Lib.Repeat.colRepeat_apply v59 broadcasts_S32x1_S32x256 k d

/-- The first half of the block: `((w² B + 2w²b A + w²b² C) - C) · 2^(-1/2)`. -/
theorem block_sigma (u : Fin 1) (k : Fin 32) (d : Fin 256) :
    k0_pay4 (F := Ideal) v6 v8 v52 v53 v55 v57 v58 v59 (ix4 u (0 : Fin 2) k d)
      = ((((v6 (ix2 k d) * v58 (ix2 k d) + v8 (ix2 k d) * v57 (ix2 k d)) + v55 (ix2 k d) * v59 (ix2 k (0 : Fin 1)))
          - v59 (ix2 k (0 : Fin 1))) * rsqrt2) := by
  unfold k0_pay4
  try dsimp only
  refine (shapeCast_abc_1abc_apply _ shapeCasts_S2x32x256_S1x2x32x256 u (0 : Fin 2) k d).trans ?_
  refine (concatenate_pair_apply_left (t := S2x32x256) (s₁ := S1x32x256) (s₂ := S1x32x256) (0 : Fin 3) _ _ concatenates_S1x32x256_S1x32x256_S2x32x256_d0
    (ix3 (0 : Fin 2) k d) rfl (ix3 (0 : Fin 1) k d) (fun b => ?_)).trans ?_
  · match b with
    | ⟨0, _⟩ => rfl
    | ⟨1, _⟩ => rfl
    | ⟨2, _⟩ => rfl
  refine (shapeCast_ab_1ab_apply _ shapeCasts_S32x256_S1x32x256 (0 : Fin 1) k d).trans ?_
  simp only [mulf_apply, subf_apply, addf_apply, broadcast_apply, count_apply, shapeCast_self]
  rfl

/-- The second half of the block: `w A + wb C`. -/
theorem block_mu (u : Fin 1) (k : Fin 32) (d : Fin 256) :
    k0_pay4 (F := Ideal) v6 v8 v52 v53 v55 v57 v58 v59 (ix4 u (1 : Fin 2) k d)
      = v52 (ix2 k d) * v57 (ix2 k d) + v53 (ix2 k d) * v59 (ix2 k (0 : Fin 1)) := by
  unfold k0_pay4
  try dsimp only
  refine (shapeCast_abc_1abc_apply _ shapeCasts_S2x32x256_S1x2x32x256 u (1 : Fin 2) k d).trans ?_
  refine (concatenate_pair_apply_right (t := S2x32x256) (s₁ := S1x32x256) (s₂ := S1x32x256) (0 : Fin 3) _ _ concatenates_S1x32x256_S1x32x256_S2x32x256_d0
    (ix3 (1 : Fin 2) k d) rfl rfl (ix3 (0 : Fin 1) k d) (fun b hb => ?_) rfl).trans ?_
  · match b with
    | ⟨0, _⟩ => exact absurd rfl hb
    | ⟨1, _⟩ => rfl
    | ⟨2, _⟩ => rfl
  refine (shapeCast_ab_1ab_apply _ shapeCasts_S32x256_S1x32x256 (0 : Fin 1) k d).trans ?_
  simp only [mulf_apply, addf_apply, count_apply, shapeCast_self]

end

/-! ## The zero blocks the first step of a core starts from -/

theorem zeroA_apply (j : S32x256.Idx) : k0_pay5 (F := Ideal) j = 0 := by
  unfold k0_pay5; rw [shapeCast_self, broadcast_apply]; exact Ideal.ofBits_zero_f32
theorem zeroB_apply (j : S32x256.Idx) : k0_pay6 (F := Ideal) j = 0 := by
  unfold k0_pay6; rw [shapeCast_self, broadcast_apply]; exact Ideal.ofBits_zero_f32
theorem zeroC_apply (j : S32x1.Idx) : k0_pay7 (F := Ideal) j = 0 := by
  unfold k0_pay7; rw [shapeCast_self, broadcast_apply]; exact Ideal.ofBits_zero_f32

end Cert.KernelIdeal.Tile

end
-- ==== Proof.Pieces.lean ====
/-
  What one grid step leaves in the three running sums and, at a core's last step, in the output block, as pure
  functions of the blocks the step reads: the first step of a core starts the sums from zero, the other steps add to
  what the step before left, and the last step also writes the block computed from the updated sums.
-/
import proofs.«154990_j30846455119907_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

theorem first_sumA (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : cond0_0 i) (hc1 : ¬cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay1 (k0_pay14 x0 x3 x4 x6 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S32x256) hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem first_sumB (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : cond0_0 i) (hc1 : ¬cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay2 (k0_pay12 x0 x3 x4 x6) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S32x256) hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem first_sumC (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : cond0_0 i) (hc1 : ¬cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay3 (k0_pay13 x0 x3 x4 x6) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S32x1) hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem next_sumA (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : ¬cond0_0 i) (hc1 : ¬cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) (xs0 : Vec F S32x256 .f32) (xs1 : Vec F S32x256 .f32) (xs2 : Vec F S32x1 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay14 x0 x3 x4 x6 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem next_sumB (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : ¬cond0_0 i) (hc1 : ¬cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) (xs0 : Vec F S32x256 .f32) (xs1 : Vec F S32x256 .f32) (xs2 : Vec F S32x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay2 (k0_pay12 x0 x3 x4 x6) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem next_sumC (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : ¬cond0_0 i) (hc1 : ¬cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) (xs0 : Vec F S32x256 .f32) (xs1 : Vec F S32x256 .f32) (xs2 : Vec F S32x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay3 (k0_pay13 x0 x3 x4 x6) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem last_sumA (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : ¬cond0_0 i) (hc1 : cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) (xs0 : Vec F S32x256 .f32) (xs1 : Vec F S32x256 .f32) (xs2 : Vec F S32x1 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay14 x0 x3 x4 x6 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem last_sumB (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : ¬cond0_0 i) (hc1 : cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) (xs0 : Vec F S32x256 .f32) (xs1 : Vec F S32x256 .f32) (xs2 : Vec F S32x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay2 (k0_pay12 x0 x3 x4 x6) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem last_sumC (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : ¬cond0_0 i) (hc1 : cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) (xs0 : Vec F S32x256 .f32) (xs1 : Vec F S32x256 .f32) (xs2 : Vec F S32x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay3 (k0_pay13 x0 x3 x4 x6) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz2]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

theorem last_block (c : Dev nD) (i : grid0.Coords) (arg2 : Memref sig .tc .vmem S512x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S1x32 .f32) (harg8 : arg8.IsWhole) (arg9 : Memref sig .tc .vmem S1x2x32x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S32x1 .f32) (harg12 : arg12.IsWhole) (hc0 : ¬cond0_0 i) (hc1 : cond0_1 i)
    (x0 : Vec F S512x256 .f32) (x1 : Vec F S32x256 .f32) (x2 : Vec F S32x256 .f32) (x3 : Vec F S32x256 .f32) (x4 : Vec F S32x256 .f32) (x5 : Vec F S32x256 .f32) (x6 : Vec F S1x32 .f32) (xs0 : Vec F S32x256 .f32) (xs1 : Vec F S32x256 .f32) (xs2 : Vec F S32x1 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay4 (k0_pay9 x3) (k0_pay10 x4) x1 x2 x5 (k0_pay1 (k0_pay14 x0 x3 x4 x6 xs0)) (k0_pay2 (k0_pay12 x0 x3 x4 x6) xs1) (k0_pay3 (k0_pay13 x0 x3 x4 x6) xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz4]
  simp only [View.readCov_unit_zero (S := S32x256) _ hz2, View.readCov_unit_zero (S := S32x1) _ hz2, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S32x256) hz2, View.ld_unit_zero (S := S512x256) hz2, View.ld_unit_zero (S := S1x32) hz2, View.ld_unit_zero (S := S32x1) hz2]

end Cert.KernelIdeal.Pieces

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.Accum.lean ====
/-
  The three running sums after each grid step, and the block a core writes at its last step: each core adds up the
  contributions of its eight tiles, starting from zero at its first step, and the block is computed from the sums.
-/
import proofs.«154990_j30846455119907_2_alg».proof.Proof.Blocks
import proofs.«154990_j30846455119907_2_alg».proof.Proof.Tile
import proofs.«154990_j30846455119907_2_alg».proof.Proof.Pieces
import proofs.«154990_j30846455119907_2_alg».proof.Proof.LibBlockSum

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.Fisher Cert.KernelIdeal.Blocks Cert.KernelIdeal.Tile Cert.KernelIdeal.Pieces

variable (m : (ℓ : Loc nD τ sig) → Buf (Elt Ideal) ℓ) (c : Dev nD)

/-- The softmax weights the step at point `t` computes are those of tile `t`'s rows. -/
theorem point_weights (t : Fin cfg0.N) (r : Fin 512) (k : Fin 32) :
    k0_pay11 (F := Ideal) (iblk m c 0 t) (iblk m c 3 t) (iblk m c 4 t) (iblk m c 6 t) (ix2 r k)
      = kerGamma (X m c) (W m c) (B m c) (row (tileOf t) r) k := by
  rw [tileWeights_apply]
  unfold kerGamma
  refine congrArg (weights · k) (funext fun k' => ?_)
  rw [logitBlock_apply]
  unfold kerLogit
  simp only [block_x, block_w2, block_wb2, block_cb, Cert.KernelIdeal.Blocks.table_w2 m c, Cert.KernelIdeal.Blocks.table_wb2 m c, Cert.KernelIdeal.Blocks.table_cb m c]

theorem point_A (t : Fin cfg0.N) (acc : FVec Ideal S32x256 .f32) (k : Fin 32) (d : Fin 256) :
    k0_pay1 (F := Ideal) (k0_pay14 (iblk m c 0 t) (iblk m c 3 t) (iblk m c 4 t) (iblk m c 6 t) acc) (ix2 k d)
      = acc (ix2 k d) + tileA (X m c) (W m c) (B m c) (tileOf t) k d := by
  rw [sumA_apply]
  unfold tileA
  refine congrArg (acc (ix2 k d) + ·) (Finset.sum_congr rfl fun r _ => ?_)
  rw [point_weights, block_x]

theorem point_B (t : Fin cfg0.N) (acc : FVec Ideal S32x256 .f32) (k : Fin 32) (d : Fin 256) :
    k0_pay2 (F := Ideal) (k0_pay12 (iblk m c 0 t) (iblk m c 3 t) (iblk m c 4 t) (iblk m c 6 t)) acc (ix2 k d)
      = acc (ix2 k d) + tileB (X m c) (W m c) (B m c) (tileOf t) k d := by
  rw [sumB_apply]
  unfold tileB
  refine congrArg (acc (ix2 k d) + ·) (Finset.sum_congr rfl fun r _ => ?_)
  rw [point_weights, block_x]

theorem point_C (t : Fin cfg0.N) (acc : FVec Ideal S32x1 .f32) (k : Fin 32) (u : Fin 1) :
    k0_pay3 (F := Ideal) (k0_pay13 (iblk m c 0 t) (iblk m c 3 t) (iblk m c 4 t) (iblk m c 6 t)) acc (ix2 k u)
      = acc (ix2 k u) + tileC (X m c) (W m c) (B m c) (tileOf t) k := by
  rw [sumC_apply]
  unfold tileC
  refine congrArg (acc (ix2 k u) + ·) (Finset.sum_congr rfl fun r _ => ?_)
  rw [point_weights]

/-! ## The sums step by step -/

/-- Sum A after the first step of a core: the first tile's contribution. -/
theorem sA_first (t : Fin cfg0.N) (h0 : t.val % 8 = 0) (k : Fin 32) (d : Fin 256) :
    (outsAt0 m c t.val t.isLt).2.1 (ix2 k d) = tileA (X m c) (W m c) (B m c) (tileOf t) k d := by
  have h1 : ¬t.val % 8 = 7 := by omega
  rw [outsAt0_A m c t h0 h1]
  dsimp only
  rw [first_sumA, point_A, zeroA_apply]
  exact zero_add (M := EReal) _

/-- Sum A after any other step: what the step before left, plus this tile's contribution. -/
theorem sA_next (t : Fin cfg0.N) (h0 : ¬t.val % 8 = 0) (k : Fin 32) (d : Fin 256) :
    (outsAt0 m c t.val t.isLt).2.1 (ix2 k d)
      = (outsAt0 m c (t.val - 1) (Nat.lt_of_le_of_lt (Nat.sub_le _ _) t.isLt)).2.1 (ix2 k d) + tileA (X m c) (W m c) (B m c) (tileOf t) k d := by
  by_cases h1 : t.val % 8 = 7
  · rw [outsAt0_C m c t h0 h1]
    dsimp only
    rw [last_sumA, point_A]
  · rw [outsAt0_B m c t h0 h1]
    dsimp only
    rw [next_sumA, point_A]

/-- Sum B after the first step of a core: the first tile's contribution. -/
theorem sB_first (t : Fin cfg0.N) (h0 : t.val % 8 = 0) (k : Fin 32) (d : Fin 256) :
    (outsAt0 m c t.val t.isLt).2.2.1 (ix2 k d) = tileB (X m c) (W m c) (B m c) (tileOf t) k d := by
  have h1 : ¬t.val % 8 = 7 := by omega
  rw [outsAt0_A m c t h0 h1]
  dsimp only
  rw [first_sumB, point_B, zeroB_apply]
  exact zero_add (M := EReal) _

/-- Sum B after any other step: what the step before left, plus this tile's contribution. -/
theorem sB_next (t : Fin cfg0.N) (h0 : ¬t.val % 8 = 0) (k : Fin 32) (d : Fin 256) :
    (outsAt0 m c t.val t.isLt).2.2.1 (ix2 k d)
      = (outsAt0 m c (t.val - 1) (Nat.lt_of_le_of_lt (Nat.sub_le _ _) t.isLt)).2.2.1 (ix2 k d) + tileB (X m c) (W m c) (B m c) (tileOf t) k d := by
  by_cases h1 : t.val % 8 = 7
  · rw [outsAt0_C m c t h0 h1]
    dsimp only
    rw [last_sumB, point_B]
  · rw [outsAt0_B m c t h0 h1]
    dsimp only
    rw [next_sumB, point_B]

/-- Sum C after the first step of a core: the first tile's contribution. -/
theorem sC_first (t : Fin cfg0.N) (h0 : t.val % 8 = 0) (k : Fin 32) (u : Fin 1) :
    (outsAt0 m c t.val t.isLt).2.2.2 (ix2 k u) = tileC (X m c) (W m c) (B m c) (tileOf t) k := by
  have h1 : ¬t.val % 8 = 7 := by omega
  rw [outsAt0_A m c t h0 h1]
  dsimp only
  rw [first_sumC, point_C, zeroC_apply]
  exact zero_add (M := EReal) _

/-- Sum C after any other step: what the step before left, plus this tile's contribution. -/
theorem sC_next (t : Fin cfg0.N) (h0 : ¬t.val % 8 = 0) (k : Fin 32) (u : Fin 1) :
    (outsAt0 m c t.val t.isLt).2.2.2 (ix2 k u)
      = (outsAt0 m c (t.val - 1) (Nat.lt_of_le_of_lt (Nat.sub_le _ _) t.isLt)).2.2.2 (ix2 k u) + tileC (X m c) (W m c) (B m c) (tileOf t) k := by
  by_cases h1 : t.val % 8 = 7
  · rw [outsAt0_C m c t h0 h1]
    dsimp only
    rw [last_sumC, point_C]
  · rw [outsAt0_B m c t h0 h1]
    dsimp only
    rw [next_sumC, point_C]

/-! ## A core's eight steps -/

theorem pt_lt (c' : Fin 2) (i : Fin 8) : 8 * c'.val + i.val < cfg0.N := by
  rw [show cfg0.N = 16 from N_0]; have := c'.isLt; have := i.isLt; omega
/-- Step `i` of core `c'` as a grid point. -/
def pt (c' : Fin 2) (i : Fin 8) : Fin cfg0.N := ⟨8 * c'.val + i.val, pt_lt c' i⟩

theorem tileOf_pt (c' : Fin 2) (i : Fin 8) : tileOf (pt c' i) = tile c' i := rfl

theorem outs_congr {n n' : ℕ} (h : n = n') (hn : n < cfg0.N) (hn' : n' < cfg0.N) :
    outsAt0 m c n hn = outsAt0 m c n' hn' := by subst h; rfl

/-- After a core's last step sum A holds the contributions of all its eight tiles. -/
theorem coreA_eq (c' : Fin 2) (k : Fin 32) (d : Fin 256) :
    (outsAt0 m c (pt c' 7).val (pt c' 7).isLt).2.1 (ix2 k d) = coreA (X m c) (W m c) (B m c) c' k d := by
  have h := Cert.Lib.BlockSum.acc_fin_last (n := 7)
    (fun i : Fin 8 => tileA (X m c) (W m c) (B m c) (tile c' i) k d)
    (fun i : Fin 8 => (outsAt0 m c (pt c' i).val (pt c' i).isLt).2.1 (ix2 k d))
    (sA_first m c (pt c' 0) (by show (8 * c'.val + 0) % 8 = 0; omega) k d)
    (fun i => by
      have hs := sA_next m c (pt c' i.succ) (by show ¬(8 * c'.val + (i.val + 1)) % 8 = 0; have := i.isLt; omega) k d
      rw [outs_congr m c (show (pt c' i.succ).val - 1 = (pt c' i.castSucc).val by
        show 8 * c'.val + (i.val + 1) - 1 = 8 * c'.val + i.val; omega) _ (pt c' i.castSucc).isLt] at hs
      exact hs)
  exact h

/-- After a core's last step sum B holds the contributions of all its eight tiles. -/
theorem coreB_eq (c' : Fin 2) (k : Fin 32) (d : Fin 256) :
    (outsAt0 m c (pt c' 7).val (pt c' 7).isLt).2.2.1 (ix2 k d) = coreB (X m c) (W m c) (B m c) c' k d := by
  have h := Cert.Lib.BlockSum.acc_fin_last (n := 7)
    (fun i : Fin 8 => tileB (X m c) (W m c) (B m c) (tile c' i) k d)
    (fun i : Fin 8 => (outsAt0 m c (pt c' i).val (pt c' i).isLt).2.2.1 (ix2 k d))
    (sB_first m c (pt c' 0) (by show (8 * c'.val + 0) % 8 = 0; omega) k d)
    (fun i => by
      have hs := sB_next m c (pt c' i.succ) (by show ¬(8 * c'.val + (i.val + 1)) % 8 = 0; have := i.isLt; omega) k d
      rw [outs_congr m c (show (pt c' i.succ).val - 1 = (pt c' i.castSucc).val by
        show 8 * c'.val + (i.val + 1) - 1 = 8 * c'.val + i.val; omega) _ (pt c' i.castSucc).isLt] at hs
      exact hs)
  exact h

/-- After a core's last step sum C holds the contributions of all its eight tiles. -/
theorem coreC_eq (c' : Fin 2) (k : Fin 32) (u : Fin 1) :
    (outsAt0 m c (pt c' 7).val (pt c' 7).isLt).2.2.2 (ix2 k u) = coreC (X m c) (W m c) (B m c) c' k := by
  have h := Cert.Lib.BlockSum.acc_fin_last (n := 7)
    (fun i : Fin 8 => tileC (X m c) (W m c) (B m c) (tile c' i) k)
    (fun i : Fin 8 => (outsAt0 m c (pt c' i).val (pt c' i).isLt).2.2.2 (ix2 k u))
    (sC_first m c (pt c' 0) (by show (8 * c'.val + 0) % 8 = 0; omega) k u)
    (fun i => by
      have hs := sC_next m c (pt c' i.succ) (by show ¬(8 * c'.val + (i.val + 1)) % 8 = 0; have := i.isLt; omega) k u
      rw [outs_congr m c (show (pt c' i.succ).val - 1 = (pt c' i.castSucc).val by
        show 8 * c'.val + (i.val + 1) - 1 = 8 * c'.val + i.val; omega) _ (pt c' i.castSucc).isLt] at hs
      exact hs)
  exact h

/-! ## The block a core writes at its last step -/

theorem last_not_first (c' : Fin 2) : ¬(pt c' 7).val % 8 = 0 := by
  show ¬(8 * c'.val + 7) % 8 = 0; omega
theorem last_is_last (c' : Fin 2) : (pt c' 7).val % 8 = 7 := by
  show (8 * c'.val + 7) % 8 = 7; omega

/-- The first half of core `c'`'s block. -/
theorem block_value_sigma (c' : Fin 2) (u : Fin 1) (k : Fin 32) (d : Fin 256) :
    (outsAt0 m c (pt c' 7).val (pt c' 7).isLt).1 (ix4 u (0 : Fin 2) k d) = coreSigma (X m c) (W m c) (B m c) c' k d := by
  have eA := coreA_eq m c c' k d
  have eB := coreB_eq m c c' k d
  have eC := coreC_eq m c c' k (0 : Fin 1)
  rw [sA_next m c (pt c' 7) (last_not_first c') k d] at eA
  rw [sB_next m c (pt c' 7) (last_not_first c') k d] at eB
  rw [sC_next m c (pt c' 7) (last_not_first c') k (0 : Fin 1)] at eC
  rw [outsAt0_C m c (pt c' 7) (last_not_first c') (last_is_last c')]
  dsimp only
  rw [last_block, block_sigma, point_A, point_B, point_C, eA, eB, eC, Cert.KernelIdeal.Tile.table_w2, Cert.KernelIdeal.Tile.table_wb2,
    block_w2, block_wb2, block_w2b2, Cert.KernelIdeal.Blocks.table_w2 m c, Cert.KernelIdeal.Blocks.table_wb2 m c, Cert.KernelIdeal.Blocks.table_w2b2 m c]
  rfl

/-- The second half of core `c'`'s block. -/
theorem block_value_mu (c' : Fin 2) (u : Fin 1) (k : Fin 32) (d : Fin 256) :
    (outsAt0 m c (pt c' 7).val (pt c' 7).isLt).1 (ix4 u (1 : Fin 2) k d) = coreMu (X m c) (W m c) (B m c) c' k d := by
  have eA := coreA_eq m c c' k d
  have eC := coreC_eq m c c' k (0 : Fin 1)
  rw [sA_next m c (pt c' 7) (last_not_first c') k d] at eA
  rw [sC_next m c (pt c' 7) (last_not_first c') k (0 : Fin 1)] at eC
  rw [outsAt0_C m c (pt c' 7) (last_not_first c') (last_is_last c')]
  dsimp only
  rw [last_block, block_mu, point_A, point_C, eA, eC, block_w, block_wb, Cert.KernelIdeal.Blocks.table_wb m c, V_main_arg1]
  rfl

end Cert.KernelIdeal.Accum

end
-- ==== Proof.Result.lean ====
/-
  The kernel's result: the array the two cores' last steps fill, then the lines after the region (the two blocks
  added, the product with 2⁻¹³, the flattening), read at an index, and the run with the result named.
-/
import proofs.«154990_j30846455119907_2_alg».proof.Proof.Accum
import Idealize.ShloMosaic.Lib.Pipeline.Value
import Idealize.ShloMosaic.Lib.StableHlo.Run
import Idealize.ShloMosaic.Lib.ValueLayout
import Idealize.ShloMosaic.Lib.IdealHost
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Fisher Cert.KernelIdeal.Blocks Cert.KernelIdeal.Accum

variable (m : (ℓ : Loc nD τ sig) → Buf (Elt Ideal) ℓ) (ρ : Dev nD → PrngReg) (c : Dev nD)

/-- The array the region leaves: core `c'`'s block at `(c', ·, ·, ·)`, its first half the `sigma` sums, its second the `mu` sums. -/
def blocksArr : S2x2x32x256.Idx → EReal := fun j =>
  if (j 1).val = 0 then coreSigma (X m c) (W m c) (B m c) ⟨(j 0).val, (j 0).isLt⟩ ⟨(j 2).val, (j 2).isLt⟩ ⟨(j 3).val, (j 3).isLt⟩
  else coreMu (X m c) (W m c) (B m c) ⟨(j 0).val, (j 0).isLt⟩ ⟨(j 2).val, (j 2).isLt⟩ ⟨(j 3).val, (j 3).isLt⟩

theorem index_out : ∀ t : Fin cfg0.N, win0_7.index t 0 = t.val / 8 ∧ win0_7.index t 1 = 0 ∧ win0_7.index t 2 = 0 ∧ win0_7.index t 3 = 0 :=
  (by decide +kernel : ∀ t : Fin grid0.N, win0_7.index t 0 = t.val / 8 ∧ win0_7.index t 1 = 0 ∧ win0_7.index t 2 = 0 ∧ win0_7.index t 3 = 0)

/-- What a core's last step writes back is its block of that array. -/
theorem flushed_eq (t : Fin cfg0.N) (hf : (cfg0.win 7).flush t = true) :
    (dats m 0 c).flushed 7 t = ((cfg0.win 7).blk t).view.read (Elt Ideal) (blocksArr m c) := by
  have h7 : t.val % 8 = 7 := (flush0_7 t).mp hf
  have hlt := point_lt t
  obtain ⟨c', rfl⟩ : ∃ c' : Fin 2, t = pt c' 7 :=
    ⟨⟨t.val / 8, by omega⟩, Fin.ext (by show t.val = 8 * (t.val / 8) + 7; omega)⟩
  show (cfg0.win 7).cut (grid0.coords (pt c' 7)) ((dats m 0 c).after 7 (pt c' 7)) = _
  rw [after0_7]
  funext y
  rw [View.read_apply]
  obtain ⟨u, s, k, d, rfl⟩ : ∃ (u : Fin 1) (s : Fin 2) (k : Fin 32) (d : Fin 256), y = ix4 u s k d :=
    ⟨y 0, y 1, y 2, y 3, eq_ix4 y⟩
  show (outsAt0 m c (pt c' 7).val (pt c' 7).isLt).1 (ix4 u s k d)
    = blocksArr m c (((cfg0.win 7).blk (pt c' 7)).view.emb (ix4 u s k d))
  have he : ((cfg0.win 7).blk (pt c' 7)).view.emb (ix4 u s k d) = ix4 c' s k d := by
    funext a; apply Fin.ext
    match a with
    | ⟨0, _⟩ =>
      show win0_7.index (pt c' 7) 0 * 1 + 1 * u.val = c'.val
      rw [(index_out (pt c' 7)).1]
      show (8 * c'.val + 7) / 8 * 1 + 1 * u.val = c'.val
      have := u.isLt; omega
    | ⟨1, _⟩ => show win0_7.index (pt c' 7) 1 * 2 + 1 * s.val = s.val; rw [(index_out (pt c' 7)).2.1]; omega
    | ⟨2, _⟩ => show win0_7.index (pt c' 7) 2 * 32 + 1 * k.val = k.val; rw [(index_out (pt c' 7)).2.2.1]; omega
    | ⟨3, _⟩ => show win0_7.index (pt c' 7) 3 * 256 + 1 * d.val = d.val; rw [(index_out (pt c' 7)).2.2.2]; omega
  rw [he]
  unfold blocksArr
  match s with
  | ⟨0, _⟩ => exact (block_value_sigma m c c' u k d).trans (if_pos rfl).symm
  | ⟨1, _⟩ => exact (block_value_mu m c c' u k d).trans (if_neg (show ¬((1 : ℕ) = 0) from by decide)).symm

theorem mem_block (t : Fin cfg0.N) (i : S2x2x32x256.Idx) :
    i ∈ ((cfg0.win 7).blk t).view.set ↔ ∀ a : Fin 4, win0_7.index t a * S1x2x32x256.size a ≤ (i a).val
      ∧ (i a).val < win0_7.index t a * S1x2x32x256.size a + S1x2x32x256.size a := by
  show i ∈ ((View.whole main_v9).slice (win0_7.rect t)).set ↔ _
  rw [View.set_slice_whole, Rect.mem_set_unit]
  exact Iff.rfl

/-- The two cores' blocks fill the array. -/
theorem cover (i : S2x2x32x256.Idx) : ∃ t : Fin cfg0.N, (cfg0.win 7).flush t = true ∧ i ∈ ((cfg0.win 7).blk t).view.set := by
  have h0 : (i 0).val < 2 := (i 0).isLt
  have h1 : (i 1).val < 2 := (i 1).isLt
  have h2 : (i 2).val < 32 := (i 2).isLt
  have h3 : (i 3).val < 256 := (i 3).isLt
  refine ⟨pt ⟨(i 0).val, h0⟩ 7, (flush0_7 _).mpr (last_is_last _), ?_⟩
  rw [mem_block]
  obtain ⟨e0, e1, e2, e3⟩ := index_out (pt ⟨(i 0).val, h0⟩ 7)
  have e0' : win0_7.index (pt ⟨(i 0).val, h0⟩ 7) 0 = (i 0).val := by
    rw [e0]; show (8 * (i 0).val + 7) / 8 = (i 0).val; omega
  intro a
  match a with
  | ⟨0, _⟩ => show win0_7.index _ 0 * 1 ≤ (i 0).val ∧ (i 0).val < win0_7.index _ 0 * 1 + 1; rw [e0']; omega
  | ⟨1, _⟩ => show win0_7.index _ 1 * 2 ≤ (i 1).val ∧ (i 1).val < win0_7.index _ 1 * 2 + 2; rw [e1]; omega
  | ⟨2, _⟩ => show win0_7.index _ 2 * 32 ≤ (i 2).val ∧ (i 2).val < win0_7.index _ 2 * 32 + 32; rw [e2]; omega
  | ⟨3, _⟩ => show win0_7.index _ 3 * 256 ≤ (i 3).val ∧ (i 3).val < win0_7.index _ 3 * 256 + 256; rw [e3]; omega

/-- After the region the result window's array holds the two cores' blocks. -/
theorem final_blocks : (dats m 0 c).arrAt 7 cfg0.N = blocksArr m c :=
  (dats m 0 c).arrAt_eq_of_cover 7 (blocksArr m c) (flushed_eq m c) (cover)

/-! ## The lines after the region -/

/-- The kernel's result buffer after the whole program, as the lines after the region compute it from the blocks. -/
theorem tail_eq :
    Pipeline.afterTail₀ cfgs (dats m) 0 (V0 m) [hostOps1] c main_v13
      = shapeCast S16384 (mulf (F := Ideal) (s := S2x32x256) (φ := .f32)
          (Host.reduceAdd (F := Ideal) (blocksArr m c) (constant (F := Ideal) S_ .f32 0x00000000#32) reducesTo_S2x2x32x256_S2x32x256_d0 h_S_)
          (broadcastInDim S2x32x256 ![] bcast_S_S2x32x256 (constant (F := Ideal) S_ .f32 0x39000000#32))) shapeCasts_S2x32x256_S16384 := by
  have e : Pipeline.withArrays (cfgs 0).spec c (V0 m c) (fun w => (dats m 0 c).arrAt w (cfgs 0).N) (Proc.devRef .tc main_v9)
      = blocksArr m c := (Pipeline.withArrays_arr spec0 launch0.win.arr_inj c _ _ 7).trans (final_blocks m c)
  unfold Pipeline.afterTail₀
  show StableHlo.after hostOps1 _ (Proc.devRef .tc main_v13) = _
  after_results
  rw [e]
  rfl

theorem lift_core (h : S2x2x32x256.Reduces [0] S2x32x256) (s : Fin 2) (k : Fin 32) (d : Fin 256) (c' : Fin 2) :
    h.lift (ix3 s k d) c' = ix4 c' s k d := by
  funext a; apply Fin.ext
  match a with
  | ⟨0, _⟩ => rfl
  | ⟨1, _⟩ => rfl
  | ⟨2, _⟩ => rfl
  | ⟨3, _⟩ => rfl

/-- Entry `(s, k, d)` of the blocks added over the two cores and scaled. -/
theorem scaled_at (s : Fin 2) (k : Fin 32) (d : Fin 256) :
    mulf (F := Ideal) (s := S2x32x256) (φ := .f32)
      (Host.reduceAdd (F := Ideal) (blocksArr m c) (constant (F := Ideal) S_ .f32 0x00000000#32) reducesTo_S2x2x32x256_S2x32x256_d0 h_S_)
      (broadcastInDim S2x32x256 ![] bcast_S_S2x32x256 (constant (F := Ideal) S_ .f32 0x39000000#32)) (ix3 s k d)
      = (∑ c' : Fin 2, blocksArr m c (ix4 c' s k d)) * inv8192 := by
  rw [mulf_apply]
  have hb : broadcastInDim S2x32x256 ![] bcast_S_S2x32x256 (constant (F := Ideal) S_ .f32 0x39000000#32) (ix3 s k d) = inv8192 :=
    (broadcastInDim_apply _ bcast_S_S2x32x256 _ (ix3 s k d) (fun a => a.elim0) (fun a => a.elim0)).trans rfl
  rw [hb]
  refine congrArg (· * inv8192) ?_
  simp only [Host.reduceAdd, Ideal.hostReduceAdd_def]
  rw [Ideal.hostReduceAdd_single reducesTo_S2x2x32x256_S2x32x256_d0 (by decide)]
  refine (congrArg (· + _) Ideal.ofBits_zero_f32).trans ?_
  refine (zero_add (M := EReal) _).trans ?_
  refine Finset.sum_congr rfl fun c' _ => ?_
  exact congrArg (blocksArr m c) (lift_core _ s k d c')

theorem blocks_sigma (c' : Fin 2) (k : Fin 32) (d : Fin 256) :
    blocksArr m c (ix4 c' (0 : Fin 2) k d) = coreSigma (X m c) (W m c) (B m c) c' k d := if_pos rfl
theorem blocks_mu (c' : Fin 2) (k : Fin 32) (d : Fin 256) :
    blocksArr m c (ix4 c' (1 : Fin 2) k d) = coreMu (X m c) (W m c) (B m c) c' k d :=
  if_neg (show ¬((1 : ℕ) = 0) from by decide)

/-- THE KERNEL'S RESULT at flat index `q`. -/
theorem result_at (q : Fin 16384) :
    shapeCast S16384 (mulf (F := Ideal) (s := S2x32x256) (φ := .f32)
      (Host.reduceAdd (F := Ideal) (blocksArr m c) (constant (F := Ideal) S_ .f32 0x00000000#32) reducesTo_S2x2x32x256_S2x32x256_d0 h_S_)
      (broadcastInDim S2x32x256 ![] bcast_S_S2x32x256 (constant (F := Ideal) S_ .f32 0x39000000#32))) shapeCasts_S2x32x256_S16384 (ix1 q)
      = flatOut (kerSigma (X m c) (W m c) (B m c)) (kerMu (X m c) (W m c) (B m c)) q := by
  have hq := q.isLt
  unfold flatOut
  by_cases h : q.val < 8192
  · rw [dif_pos h]
    refine (shapeCast_apply _ shapeCasts_S2x32x256_S16384 (ix1 q)
      (ix3 (0 : Fin 2) (⟨q.val / 256, flat_lo h⟩ : Fin 32) (⟨q.val % 256, flat_mod _⟩ : Fin 256)) (by
        rw [Shape.rowMajor_val_three, Shape.rowMajor_val_one]
        show (0 * 32 + q.val / 256) * 256 + q.val % 256 = q.val
        omega)).trans ?_
    rw [scaled_at]
    unfold kerSigma
    simp only [blocks_sigma]
  · rw [dif_neg h]
    refine (shapeCast_apply _ shapeCasts_S2x32x256_S16384 (ix1 q)
      (ix3 (1 : Fin 2) (⟨(q.val - 8192) / 256, flat_hi hq⟩ : Fin 32) (⟨q.val % 256, flat_mod _⟩ : Fin 256)) (by
        rw [Shape.rowMajor_val_three, Shape.rowMajor_val_one]
        show (1 * 32 + (q.val - 8192) / 256) * 256 + q.val % 256 = q.val
        omega)).trans ?_
    rw [scaled_at]
    unfold kerMu
    simp only [blocks_mu]

/-- THE KERNEL'S RESULT: the flat arrangement of the kernel's two pooled halves. -/
theorem kernel_value :
    Pipeline.afterTail₀ cfgs (dats m) 0 (V0 m) [hostOps1] c main_v13
      = flatArr (kerSigma (X m c) (W m c) (B m c)) (kerMu (X m c) (W m c) (B m c)) := by
  rw [tail_eq]
  funext i
  refine (congrArg _ (eq_ix1 (n := 16384) i)).trans ?_
  exact result_at m c (i 0)

/-! ## The run -/

/-- Every weakly fair execution of the idealized kernel terminates with its result buffer at the flat arrangement of
    the kernel's two pooled halves, and its arguments unchanged. -/
theorem run : θ_run defs (onTc (τ := τ) (main (F := Ideal))) ⟨m, fun _ => 0, ρ⟩ fun r => ∀ c : Dev nD,
      r.2.mem ((c.tc : Thread nD τ).loc main_v13)
        = flatArr (kerSigma (X m c) (W m c) (B m c)) (kerMu (X m c) (W m c) (B m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (kernel_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.Consts.lean ====
/-
  The float constants the two programs spell, as the extended reals their single-precision patterns denote.
-/
import Idealize.ShloMosaic.PureOps.Ideal

noncomputable section

namespace Cert.Fisher.Consts

open Idealize.ShloMosaic

/-- `2.0` denotes the real `2`. -/
theorem ofBits_two : Ideal.ofBits .f32 0x40000000#32 = ((2 : ℝ) : EReal) := by
  simp [Ideal.ofBits, Ideal.ieee, -EReal.coe_mul]; norm_num

/-- `8192.0` denotes the real `8192`. -/
theorem ofBits_8192 : Ideal.ofBits .f32 0x46000000#32 = ((8192 : ℝ) : EReal) := by
  simp [Ideal.ofBits, Ideal.ieee, -EReal.coe_mul]; norm_num

/-- `2⁻¹³`, the reciprocal of 8192, is a power of two and so is denoted exactly. -/
theorem ofBits_inv_8192 : Ideal.ofBits .f32 0x39000000#32 = ((1 / 8192 : ℝ) : EReal) := by
  simp [Ideal.ofBits, Ideal.ieee, -EReal.coe_mul]; norm_num

/-- `-0.5` denotes a real number. -/
theorem ofBits_neg_half : ∃ r : ℝ, Ideal.ofBits .f32 0xBF000000#32 = (r : EReal) := by
  refine ⟨-(1/2), ?_⟩
  simp [Ideal.ofBits, Ideal.ieee, -EReal.coe_mul]; norm_num

/-- The single-precision rounding of `1/√2` denotes a real number. -/
theorem ofBits_inv_sqrt2 : ∃ r : ℝ, Ideal.ofBits .f32 0x3F3504F3#32 = (r : EReal) := by
  refine ⟨11863283 / 16777216, ?_⟩
  simp [Ideal.ofBits, Ideal.ieee, -EReal.coe_mul]; norm_num

end Cert.Fisher.Consts

end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.Algebra.lean ====
/-
  The kernel's spelling of the pooled mixture-layer output equals the reference's, for real inputs.

  Both spellings compute, for every component k and feature d, the average over the rows n of
  γ n k · f (w k d · (x n d + b k d)), where γ is the softmax of the logits -½ ∑_d (w (x + b))² and f is the identity
  (the mean half) or y ↦ (y² - 1) · c (the deviation half).  The kernel expands the square,
  (w (x + b))² = x² w² + x (2 w² b) + w² b², so that the sums over the rows become sums of γ, γ x and γ x², and adds
  the rows tile by tile and core by core.  On real inputs every intermediate value is real (the softmax weights are
  quotients of positive reals), so the two sides are the images of two real expressions, and those agree by
  distributivity and a regrouping of the sum over the rows.
-/
import proofs.«154990_j30846455119907_2_alg».proof.Proof.Spec
import proofs.«154990_j30846455119907_2_alg».proof.Proof.Consts
import proofs.«154990_j30846455119907_2_alg».proof.Proof.LibFinite
import proofs.«154990_j30846455119907_2_alg».proof.Proof.LibBlockSum

noncomputable section

open scoped BigOperators

namespace Cert.Fisher

open Idealize.ShloMosaic

/-! ## Coercions and constants -/

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of negative infinity denotes the bottom element. -/
theorem ninf_eq : ninf = ⊥ := by
  show Ideal.ofBits .f32 0xFF800000#32 = ⊥
  simp [Ideal.ofBits, Ideal.ieee]

theorem one32_eq : one32 = ((1 : ℝ) : EReal) := by
  show Ideal.ofBits .f32 0x3F800000#32 = _
  rw [Ideal.ofBits_one_f32, EReal.coe_one]

theorem two32_eq : two32 = ((2 : ℝ) : EReal) := Consts.ofBits_two

theorem n8192_eq : n8192 = ((8192 : ℝ) : EReal) := Consts.ofBits_8192

theorem inv8192_eq : inv8192 = ((1 / 8192 : ℝ) : EReal) := Consts.ofBits_inv_8192

/-! ## The softmax weights of a real row are real -/

/-- The maximum of a real row is real. -/
theorem rowMax_real (y : Fin 32 → ℝ) : ∃ m : ℝ, rowMax (fun k => (y k : EReal)) = (m : EReal) := by
  have hb : ⊥ < Finset.univ.fold max ⊥ (fun k : Fin 32 => (y k : EReal)) := by
    rw [Finset.lt_fold_max]
    exact Or.inr ⟨0, Finset.mem_univ _, EReal.bot_lt_coe _⟩
  have ht : Finset.univ.fold max ⊥ (fun k : Fin 32 => (y k : EReal)) < ⊤ := by
    rw [Finset.fold_max_lt]
    exact ⟨bot_lt_top, fun k _ => EReal.coe_lt_top _⟩
  obtain ⟨m, hm⟩ := Cert.Finite.isReal_of_lt hb ht
  refine ⟨m, ?_⟩
  unfold rowMax
  rw [ninf_eq, max_eq_right bot_le]
  exact hm

/-- The softmax weights of a real row are real. -/
theorem weights_real (y : Fin 32 → ℝ) :
    ∃ g : Fin 32 → ℝ, ∀ k, weights (fun k => (y k : EReal)) k = (g k : EReal) := by
  obtain ⟨m, hm⟩ := rowMax_real y
  have hexp : ∀ j : Fin 32, Ideal.exp ((y j : EReal) - rowMax (fun k => (y k : EReal)))
      = ((Real.exp (y j - m) : ℝ) : EReal) := by
    intro j
    rw [hm, ← EReal.coe_sub, Ideal.exp_coe]
  have hpos : (∑ j : Fin 32, Real.exp (y j - m)) ≠ 0 :=
    ne_of_gt (Finset.sum_pos (fun j _ => Real.exp_pos _) Finset.univ_nonempty)
  refine ⟨fun k => Real.exp (y k - m) * (1 / ∑ j : Fin 32, Real.exp (y j - m)), fun k => ?_⟩
  show Ideal.div (Ideal.exp ((y k : EReal) - rowMax (fun k => (y k : EReal))))
      (∑ j : Fin 32, Ideal.exp ((y j : EReal) - rowMax (fun k => (y k : EReal)))) = _
  rw [Finset.sum_congr rfl (fun j _ => hexp j), ← coe_sum, Ideal.div_coe hpos, hexp k, ← EReal.coe_mul]

/-! ## The logits -/

/-- The reference's logit of real inputs is the image of a real number. -/
theorem refLogit_coe (X : Fin 8192 → Fin 256 → ℝ) (W B : Fin 32 → Fin 256 → ℝ) (ch : ℝ) (hch : chalf = (ch : EReal))
    (n : Fin 8192) (k : Fin 32) :
    refLogit (fun n d => (X n d : EReal)) (fun k d => (W k d : EReal)) (fun k d => (B k d : EReal)) n k
      = ((ch * ∑ d : Fin 256, (W k d * (X n d + B k d)) * (W k d * (X n d + B k d)) : ℝ) : EReal) := by
  simp only [refLogit, y2, y1, hch]
  simp only [← EReal.coe_add, ← EReal.coe_mul, ← coe_sum]

/-- The kernel's logit, with the square expanded, is the reference's. -/
theorem kerLogit_eq (X : Fin 8192 → Fin 256 → ℝ) (W B : Fin 32 → Fin 256 → ℝ) (n : Fin 8192) (k : Fin 32) :
    kerLogit (fun n d => (X n d : EReal)) (fun k d => (W k d : EReal)) (fun k d => (B k d : EReal)) n k
      = refLogit (fun n d => (X n d : EReal)) (fun k d => (W k d : EReal)) (fun k d => (B k d : EReal)) n k := by
  simp only [kerLogit, refLogit, cbias, w2b2, wb2, w2, y2, y1, two32_eq]
  simp only [← EReal.coe_add, ← EReal.coe_mul, ← coe_sum]
  congr 2
  rw [← Finset.sum_add_distrib, ← Finset.sum_add_distrib]
  refine Finset.sum_congr rfl fun d _ => ?_
  ring

/-- So the kernel's weights are the reference's. -/
theorem kerGamma_eq (X : Fin 8192 → Fin 256 → ℝ) (W B : Fin 32 → Fin 256 → ℝ) (n : Fin 8192) (k : Fin 32) :
    kerGamma (fun n d => (X n d : EReal)) (fun k d => (W k d : EReal)) (fun k d => (B k d : EReal)) n k
      = refGamma (fun n d => (X n d : EReal)) (fun k d => (W k d : EReal)) (fun k d => (B k d : EReal)) n k := by
  unfold kerGamma refGamma
  rw [show kerLogit (fun n d => (X n d : EReal)) (fun k d => (W k d : EReal)) (fun k d => (B k d : EReal)) n
      = refLogit (fun n d => (X n d : EReal)) (fun k d => (W k d : EReal)) (fun k d => (B k d : EReal)) n from
    funext fun k => kerLogit_eq X W B n k]

/-- The weights of real inputs are real. -/
theorem refGamma_real (X : Fin 8192 → Fin 256 → ℝ) (W B : Fin 32 → Fin 256 → ℝ) :
    ∃ G : Fin 8192 → Fin 32 → ℝ, ∀ n k,
      refGamma (fun n d => (X n d : EReal)) (fun k d => (W k d : EReal)) (fun k d => (B k d : EReal)) n k
        = (G n k : EReal) := by
  obtain ⟨ch, hch⟩ := Consts.ofBits_neg_half
  have h : ∀ n : Fin 8192, ∃ g : Fin 32 → ℝ, ∀ k,
      refGamma (fun n d => (X n d : EReal)) (fun k d => (W k d : EReal)) (fun k d => (B k d : EReal)) n k
        = (g k : EReal) := by
    intro n
    obtain ⟨g, hg⟩ := weights_real
      (fun k => ch * ∑ d : Fin 256, (W k d * (X n d + B k d)) * (W k d * (X n d + B k d)))
    refine ⟨g, fun k => ?_⟩
    unfold refGamma
    rw [show refLogit (fun n d => (X n d : EReal)) (fun k d => (W k d : EReal)) (fun k d => (B k d : EReal)) n
        = fun k => ((ch * ∑ d : Fin 256, (W k d * (X n d + B k d)) * (W k d * (X n d + B k d)) : ℝ) : EReal) from
      funext fun k => refLogit_coe X W B ch hch n k]
    exact hg k
  choose G hG using h
  exact ⟨G, hG⟩

/-! ## The sum over the rows, regrouped -/

/-- The sum over the 8192 rows is the sum over the two cores of the sums over a core's eight tiles of the sums over a
    tile's 512 rows. -/
theorem sum_rows {M : Type*} [AddCommMonoid M] (g : Fin 8192 → M) :
    ∑ n : Fin 8192, g n = ∑ c : Fin 2, ∑ i : Fin 8, ∑ r : Fin 512, g (row (tile c i) r) := by
  rw [Cert.Lib.BlockSum.sum_eq_sum_blocks 16 512 (by norm_num) g]
  exact Cert.Lib.BlockSum.sum_eq_sum_blocks 2 8 (by norm_num) (fun t : Fin 16 => ∑ r : Fin 512, g (row t r))

/-- The deviation half on one core: the three weighted sums recombine into the sum of the weighted squares. -/
theorem sigma_core {α β : Type*} [Fintype α] [Fintype β] (G x : α → β → ℝ) (w b rr : ℝ) :
    ((((w * w) * ∑ i, ∑ r, G i r * (x i r * x i r) + ((2 * (w * w)) * b) * ∑ i, ∑ r, G i r * x i r)
        + (((w * w) * b) * b) * ∑ i, ∑ r, G i r) - ∑ i, ∑ r, G i r) * rr
      = ∑ i, ∑ r, G i r * (((w * (x i r + b)) * (w * (x i r + b)) - 1) * rr) := by
  simp only [Finset.mul_sum, Finset.sum_mul, ← Finset.sum_add_distrib, ← Finset.sum_sub_distrib]
  refine Finset.sum_congr rfl fun i _ => Finset.sum_congr rfl fun r _ => ?_
  ring

/-- The mean half on one core. -/
theorem mu_core {α β : Type*} [Fintype α] [Fintype β] (G x : α → β → ℝ) (w b : ℝ) :
    w * ∑ i, ∑ r, G i r * x i r + (w * b) * ∑ i, ∑ r, G i r = ∑ i, ∑ r, G i r * (w * (x i r + b)) := by
  simp only [Finset.mul_sum, ← Finset.sum_add_distrib]
  refine Finset.sum_congr rfl fun i _ => Finset.sum_congr rfl fun r _ => ?_
  ring

/-! ## The four outputs as images of real expressions -/

section
variable (X : Fin 8192 → Fin 256 → ℝ) (W B : Fin 32 → Fin 256 → ℝ) (G : Fin 8192 → Fin 32 → ℝ) (rr : ℝ)

theorem refSigma_coe (hrr : rsqrt2 = (rr : EReal))
    (hG : ∀ n k, refGamma (fun n d => (X n d : EReal)) (fun k d => (W k d : EReal)) (fun k d => (B k d : EReal)) n k
      = (G n k : EReal)) (k : Fin 32) (d : Fin 256) :
    refSigma (fun n d => (X n d : EReal)) (fun k d => (W k d : EReal)) (fun k d => (B k d : EReal)) k d
      = (((∑ n : Fin 8192, G n k * (((W k d * (X n d + B k d)) * (W k d * (X n d + B k d)) - 1) * rr))
          * (1 / 8192) : ℝ) : EReal) := by
  simp only [refSigma, hG, y2, y1, hrr, one32_eq, n8192_eq]
  rw [Ideal.div_coe (by norm_num)]
  simp only [← EReal.coe_add, ← EReal.coe_mul, ← EReal.coe_sub, ← coe_sum]

theorem refMu_coe
    (hG : ∀ n k, refGamma (fun n d => (X n d : EReal)) (fun k d => (W k d : EReal)) (fun k d => (B k d : EReal)) n k
      = (G n k : EReal)) (k : Fin 32) (d : Fin 256) :
    refMu (fun n d => (X n d : EReal)) (fun k d => (W k d : EReal)) (fun k d => (B k d : EReal)) k d
      = (((∑ n : Fin 8192, G n k * (W k d * (X n d + B k d))) * (1 / 8192) : ℝ) : EReal) := by
  simp only [refMu, hG, y1, n8192_eq]
  rw [Ideal.div_coe (by norm_num)]
  simp only [← EReal.coe_add, ← EReal.coe_mul, ← coe_sum]

theorem kerSigma_coe (hrr : rsqrt2 = (rr : EReal))
    (hG : ∀ n k, kerGamma (fun n d => (X n d : EReal)) (fun k d => (W k d : EReal)) (fun k d => (B k d : EReal)) n k
      = (G n k : EReal)) (k : Fin 32) (d : Fin 256) :
    kerSigma (fun n d => (X n d : EReal)) (fun k d => (W k d : EReal)) (fun k d => (B k d : EReal)) k d
      = (((∑ c : Fin 2,
            ((((W k d * W k d) * ∑ i : Fin 8, ∑ r : Fin 512,
                  G (row (tile c i) r) k * (X (row (tile c i) r) d * X (row (tile c i) r) d)
                + ((2 * (W k d * W k d)) * B k d) * ∑ i : Fin 8, ∑ r : Fin 512,
                  G (row (tile c i) r) k * X (row (tile c i) r) d)
              + (((W k d * W k d) * B k d) * B k d) * ∑ i : Fin 8, ∑ r : Fin 512, G (row (tile c i) r) k)
              - ∑ i : Fin 8, ∑ r : Fin 512, G (row (tile c i) r) k) * rr)
          * (1 / 8192) : ℝ) : EReal) := by
  simp only [kerSigma, coreSigma, coreA, coreB, coreC, tileA, tileB, tileC, hG, w2b2, wb2, w2, hrr, two32_eq,
    inv8192_eq]
  simp only [← EReal.coe_add, ← EReal.coe_mul, ← EReal.coe_sub, ← coe_sum]

theorem kerMu_coe
    (hG : ∀ n k, kerGamma (fun n d => (X n d : EReal)) (fun k d => (W k d : EReal)) (fun k d => (B k d : EReal)) n k
      = (G n k : EReal)) (k : Fin 32) (d : Fin 256) :
    kerMu (fun n d => (X n d : EReal)) (fun k d => (W k d : EReal)) (fun k d => (B k d : EReal)) k d
      = (((∑ c : Fin 2,
            (W k d * ∑ i : Fin 8, ∑ r : Fin 512, G (row (tile c i) r) k * X (row (tile c i) r) d
              + (W k d * B k d) * ∑ i : Fin 8, ∑ r : Fin 512, G (row (tile c i) r) k))
          * (1 / 8192) : ℝ) : EReal) := by
  simp only [kerMu, coreMu, coreA, coreC, tileA, tileC, hG, wb, inv8192_eq]
  simp only [← EReal.coe_add, ← EReal.coe_mul, ← coe_sum]

end

/-! ## The two spellings agree -/

theorem ker_eq_ref (X : Fin 8192 → Fin 256 → ℝ) (W B : Fin 32 → Fin 256 → ℝ) :
    kerSigma (fun n d => (X n d : EReal)) (fun k d => (W k d : EReal)) (fun k d => (B k d : EReal))
      = refSigma (fun n d => (X n d : EReal)) (fun k d => (W k d : EReal)) (fun k d => (B k d : EReal))
    ∧ kerMu (fun n d => (X n d : EReal)) (fun k d => (W k d : EReal)) (fun k d => (B k d : EReal))
      = refMu (fun n d => (X n d : EReal)) (fun k d => (W k d : EReal)) (fun k d => (B k d : EReal)) := by
  obtain ⟨rr, hrr⟩ := Consts.ofBits_inv_sqrt2
  obtain ⟨G, hG⟩ := refGamma_real X W B
  have hG' : ∀ n k,
      kerGamma (fun n d => (X n d : EReal)) (fun k d => (W k d : EReal)) (fun k d => (B k d : EReal)) n k
        = (G n k : EReal) := fun n k => (kerGamma_eq X W B n k).trans (hG n k)
  constructor
  · funext k d
    rw [kerSigma_coe X W B G rr hrr hG' k d, refSigma_coe X W B G rr hrr hG k d,
      sum_rows (fun n => G n k * (((W k d * (X n d + B k d)) * (W k d * (X n d + B k d)) - 1) * rr))]
    congr 2
    refine Finset.sum_congr rfl fun c _ => ?_
    exact sigma_core (fun i r => G (row (tile c i) r) k) (fun i r => X (row (tile c i) r) d) (W k d) (B k d) rr
  · funext k d
    rw [kerMu_coe X W B G hG' k d, refMu_coe X W B G hG k d,
      sum_rows (fun n => G n k * (W k d * (X n d + B k d)))]
    congr 2
    refine Finset.sum_congr rfl fun c _ => ?_
    exact mu_core (fun i r => G (row (tile c i) r) k) (fun i r => X (row (tile c i) r) d) (W k d) (B k d)

end Cert.Fisher

end
-- ==== Proof.Finite.lean ====
/-
  The precondition read back: when the finiteness predicate of the three argument arrays is all ones, every entry of
  every array is a real number (its absolute value is below `+inf`).
-/
import proofs.«154990_j30846455119907_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- The word `0x7F800000` denotes `+inf`. -/
theorem ofBits_inf : Ideal.ofBits .f32 0x7F800000#32 = ⊤ := by
  simp [Ideal.ofBits, Ideal.ieee]

/-- An extended real whose absolute value is below `+inf` is a real number. -/
theorem real_of_abs_lt {x : EReal} (h : Ideal.cmp .olt (max x (-x)) (Ideal.ofBits .f32 0x7F800000#32) = 1#1) :
    ∃ r : ℝ, x = (r : EReal) := by
  rw [ofBits_inf] at h
  have hlt : max x (-x) < ⊤ := by
    by_contra hn
    have : Ideal.cmp .olt (max x (-x)) ⊤ = 0#1 := by
      unfold Ideal.cmp; simp [hn]
    rw [this] at h; exact absurd h (by decide)
  induction x using EReal.rec with
  | bot => exact absurd hlt (by simp)
  | coe r => exact ⟨r, rfl⟩
  | top => exact absurd hlt (by simp)

variable [Facts]
open Facts

/-- Every entry of the three arrays is real when the predicate is all ones. -/
theorem all_real (a0 : FVec Ideal S8192x256 .f32) (a1 a2 : FVec Ideal S32x256 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.mp h0
  obtain ⟨hx, hw⟩ := IntOp.andi_eq_one.mp h01
  refine ⟨fun i => real_of_abs_lt (Host.reduce_andi_all _ _ _ _ _ hx i),
    fun i => real_of_abs_lt (Host.reduce_andi_all _ _ _ _ _ hw i),
    fun i => real_of_abs_lt (Host.reduce_andi_all _ _ _ _ _ h2 i)⟩

end Cert.Pre_finite_inputs.Finite

end
-- ==== Proof.lean ====
/-
  The certificate of the mixture layer's pooled score kernel against its reference, over the extended reals.

  Both programs compute, for 8192 rows `x_n` and 32 components with weights `w_k` and offsets `b_k`, the softmax weights
  `γ(n, k)` of the logits `-½ ∑_d (w (x + b))²` and the row averages of `γ · ((w (x + b))² - 1) / √2` and `γ · w (x + b)`.
  The reference spells exactly that. The kernel expands the square, `(w (x + b))² = w² x² + 2 w² b x + w² b²`, so that the
  sums over the features and over the rows become matrix products; it walks the rows in sixteen tiles of 512, two cores
  taking eight tiles each and keeping three running sums, writes one block per core at the core's last step, and the
  lines after the launch add the two blocks and multiply by 2⁻¹³, which is the division by 8192. On finite inputs every
  number in sight is a real, the expansion and the regrouping of the sums are identities of real numbers, and the two
  results agree entry by entry. The frames are the generated ones; nothing was rewritten by the ideal pass.
-/
import proofs.«154990_j30846455119907_2_alg».proof.Defs
import proofs.«154990_j30846455119907_2_alg».proof.Proof.Gen.Kernel
import proofs.«154990_j30846455119907_2_alg».proof.Proof.Gen.Kernel.Skeleton
import proofs.«154990_j30846455119907_2_alg».proof.Proof.Gen.Kernel.Launch
import proofs.«154990_j30846455119907_2_alg».proof.Proof.Gen.Kernel.Points
import proofs.«154990_j30846455119907_2_alg».proof.Proof.Gen.Kernel.Frame
import proofs.«154990_j30846455119907_2_alg».proof.Proof.Gen.KernelIdeal
import proofs.«154990_j30846455119907_2_alg».proof.Proof.Gen.KernelIdeal.Skeleton
import proofs.«154990_j30846455119907_2_alg».proof.Proof.Gen.KernelIdeal.Launch
import proofs.«154990_j30846455119907_2_alg».proof.Proof.Gen.KernelIdeal.Points
import proofs.«154990_j30846455119907_2_alg».proof.Proof.Gen.KernelIdeal.Frame
import proofs.«154990_j30846455119907_2_alg».proof.Proof.Gen.ReferenceIdeal
import proofs.«154990_j30846455119907_2_alg».proof.Proof.Gen.Pre_finite_inputs
import proofs.«154990_j30846455119907_2_alg».proof.Proof.RefRead
import proofs.«154990_j30846455119907_2_alg».proof.Proof.RefValue
import proofs.«154990_j30846455119907_2_alg».proof.Proof.Result
import proofs.«154990_j30846455119907_2_alg».proof.Proof.Algebra
import proofs.«154990_j30846455119907_2_alg».proof.Proof.Finite
import Idealize.ShloMosaic.Adequacy
import Idealize.ShloMosaic.Init

noncomputable section

namespace Cert.Proof

open Idealize.ShloMosaic Idealize.SL.Sem Idealize.ShloMosaic.ValueIdx Cert.Fisher

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

theorem preserves : Cert.preserves_Kernel_KernelIdeal := trivial

/-- On real arrays the reference's flat result is the kernel's: the two pooled halves agree. -/
theorem flat_eq (a0 : (⟨2, ![8192, 256]⟩ : Shape).Idx → EReal) (a1 a2 : (⟨2, ![32, 256]⟩ : Shape).Idx → EReal)
    (h0 : ∀ i, ∃ r : ℝ, a0 i = (r : EReal)) (h1 : ∀ i, ∃ r : ℝ, a1 i = (r : EReal)) (h2 : ∀ i, ∃ r : ℝ, a2 i = (r : EReal)) :
    flatArr (refSigma (arr2 a0) (arr2 a1) (arr2 a2)) (refMu (arr2 a0) (arr2 a1) (arr2 a2))
      = flatArr (kerSigma (arr2 a0) (arr2 a1) (arr2 a2)) (kerMu (arr2 a0) (arr2 a1) (arr2 a2)) := by
  choose X hX using h0
  choose W hW using h1
  choose B hB using h2
  have e0 : arr2 a0 = fun n d => ((X (ix2 n d) : ℝ) : EReal) := funext fun n => funext fun d => hX (ix2 n d)
  have e1 : arr2 a1 = fun k d => ((W (ix2 k d) : ℝ) : EReal) := funext fun k => funext fun d => hW (ix2 k d)
  have e2 : arr2 a2 = fun k d => ((B (ix2 k d) : ℝ) : EReal) := funext fun k => funext fun d => hB (ix2 k d)
  obtain ⟨hs, hm⟩ := ker_eq_ref (fun n d => X (ix2 n d)) (fun k d => W (ix2 k d)) (fun k d => B (ix2 k d))
  rw [e0, e1, e2, hs, hm]

/-- At the extended reals, from memories agreeing on the three arguments, both programs end with the same flat
    result: the kernel's is the flat arrangement of its two pooled halves (the frame run, read), the reference's that of
    its own (its run, read), and on finite inputs the halves agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => flatArr (kerSigma (Cert.KernelIdeal.Blocks.X m c) (Cert.KernelIdeal.Blocks.W m c) (Cert.KernelIdeal.Blocks.B m c))
      (kerMu (Cert.KernelIdeal.Blocks.X m c) (Cert.KernelIdeal.Blocks.W m c) (Cert.KernelIdeal.Blocks.B m c)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v37_eq, Cert.ReferenceIdeal.RefValue.ref_value,
    (hagree c).1, (hagree c).2.1, (hagree c).2.2]
  obtain ⟨hx, hw, hb⟩ := Cert.Pre_finite_inputs.Finite.all_real _ _ _ (hpre c)
  exact flat_eq _ _ _ hx hw hb

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
